-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048x2048 .f32) (main_arg13 : FVec F S2048x2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_v63 main_v67

def fn_part2 {F : FTy → Type} [FloatOps F] (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8192x2048 .f32) (main_arg1 : FVec F S8192x2048 .f32) (main_arg2 : FVec F S8192x2048 .f32) (main_arg3 : FVec F S2048x2048 .f32) (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048x2048 : Shape := ⟨3, ![1, 2048, 2048]⟩
abbrev S4x2048x2048 : Shape := ⟨3, ![4, 2048, 2048]⟩
abbrev S1x2048 : Shape := ⟨2, ![1, 2048]⟩
abbrev S4x2048 : Shape := ⟨2, ![4, 2048]⟩
abbrev S4x1x2048 : Shape := ⟨3, ![4, 1, 2048]⟩
abbrev S8192x8192 : Shape := ⟨2, ![8192, 8192]⟩
abbrev S128x2048 : Shape := ⟨2, ![128, 2048]⟩
abbrev S1x1x2048 : Shape := ⟨3, ![1, 1, 2048]⟩
abbrev S256x8192 : Shape := ⟨2, ![256, 8192]⟩
abbrev S256x2048 : Shape := ⟨2, ![256, 2048]⟩

abbrev nBuf : Space → Nat
  | .hbm => 38
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S1x2048x2048, .f32⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S4x2048x2048, .f32⟩
  | .hbm, ⟨20, _⟩ => ⟨S4x2048x2048, .bf16⟩
  | .hbm, ⟨21, _⟩ => ⟨S1x2048x2048, .f32⟩
  | .hbm, ⟨22, _⟩ => ⟨S1x2048x2048, .f32⟩
  | .hbm, ⟨23, _⟩ => ⟨S1x2048x2048, .f32⟩
  | .hbm, ⟨24, _⟩ => ⟨S1x2048x2048, .f32⟩
  | .hbm, ⟨25, _⟩ => ⟨S4x2048x2048, .f32⟩
  | .hbm, ⟨26, _⟩ => ⟨S4x2048x2048, .bf16⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S4x2048, .f32⟩
  | .hbm, ⟨32, _⟩ => ⟨S4x1x2048, .f32⟩
  | .hbm, ⟨33, _⟩ => ⟨S8192x2048, .bf16⟩
  | .hbm, ⟨34, _⟩ => ⟨S8192x2048, .bf16⟩
  | .hbm, ⟨35, _⟩ => ⟨S8192x8192, .bf16⟩
  | .hbm, ⟨36, _⟩ => ⟨S8192x2048, .f32⟩
  | .hbm, ⟨37, _⟩ => ⟨S8192x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S1x2048x2048, .bf16⟩
  | .local _ .vmem, ⟨8, _⟩ => ⟨S1x1x2048, .f32⟩
  | .local _ .vmem, ⟨9, _⟩ => ⟨S1x1x2048, .f32⟩
  | .local _ .vmem, ⟨10, _⟩ => ⟨S128x2048, .bf16⟩
  | .local _ .vmem, ⟨11, _⟩ => ⟨S128x2048, .bf16⟩
  | .local _ .vmem, ⟨12, _⟩ => ⟨S256x8192, .bf16⟩
  | .local _ .vmem, ⟨13, _⟩ => ⟨S256x8192, .bf16⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![4, 64], ![false, false]⟩

def k0_cond1 (i : grid0.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32 : BitVec 32 := 0#32
  let v17 : BitVec 1 := Scalar.cmpi .ne v16 c0_i32
  v17

def k0_cond2 (i : grid0.Coords) : BitVec 1 :=
  let arg0 : BitVec 32 := BitVec.ofNat 32 (i 0).val
  let c3_i32_13 : BitVec 32 := 3#32
  let v18 : BitVec 1 := Scalar.cmpi .slt arg0 c3_i32_13
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S2048x2048_S1x2048x2048_1_2 : S2048x2048.BroadcastsInDim S1x2048x2048 (![1, 2] : Fin 2 → Fin S1x2048x2048.rank)
  concatenates_S1x2048x2048_S1x2048x2048_S1x2048x2048_S1x2048x2048_S4x2048x2048_d0 : Shape.Concatenates [S1x2048x2048, S1x2048x2048, S1x2048x2048, S1x2048x2048] S4x2048x2048 0
  bitsLt_bf16_f32 : FTy.bits .bf16 < FTy.bits .f32
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  shapeCasts_S4x2048_S4x1x2048 : S4x2048.ShapeCasts S4x1x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S128x2048 : S1x2048.Broadcasts S128x2048
  packedbf16_S128x2048_S128x2048_0_0 : (Rect.unit (s := S128x2048) ![0, 0] S128x2048.size inb_S128x2048_S128x2048_0_0).PackedRows (EltTy.packing .bf16)
  inb_S256x8192_S256x2048_0_0 : ∀ a, (![0, 0] : Fin 2 → Nat) a + S256x2048.size a ≤ S256x8192.size a
  h_S256x2048 : 0 < S256x2048.numel
  shapeCasts_S256x2048_S256x2048 : S256x2048.ShapeCasts S256x2048
  inb_S256x8192_S256x2048_0_2048 : ∀ a, (![0, 2048] : Fin 2 → Nat) a + S256x2048.size a ≤ S256x8192.size a
  inb_S256x8192_S256x2048_0_4096 : ∀ a, (![0, 4096] : Fin 2 → Nat) a + S256x2048.size a ≤ S256x8192.size a
  inb_S256x8192_S256x2048_0_6144 : ∀ a, (![0, 6144] : Fin 2 → Nat) a + S256x2048.size a ≤ S256x8192.size a
  inb_S256x2048_S256x2048_0_0 : ∀ a, (![0, 0] : Fin 2 → Nat) a + S256x2048.size a ≤ S256x2048.size a
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .bf16 = 32 ∨ (Rect.block (s := S8192x2048) S128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .bf16 = 32 ∨ (Rect.block (s := S8192x2048) S128x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S4x2048x2048.size a
  hwx0_2 : ∀ i : grid0.Coords, EltTy.bits .bf16 = 32 ∨ (Rect.block (s := S4x2048x2048) S1x2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x2048.size a ≤ S4x2048x2048.size a
  hwx0_3 : ∀ i : grid0.Coords, EltTy.bits .bf16 = 32 ∨ (Rect.block (s := S4x2048x2048) S1x2048x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S4x1x2048.size a
  hwx0_4 : ∀ i : grid0.Coords, EltTy.bits .f32 = 32 ∨ (Rect.block (s := S4x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S8192x8192.size a
  hwx0_5 : ∀ i : grid0.Coords, EltTy.bits .bf16 = 32 ∨ (Rect.block (s := S8192x8192) S128x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .bf16 = 32 ∨ (Rect.block (s := S8192x8192) S256x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S8192x2048.size a
  hwx1_2 : ∀ i : grid1.Coords, EltTy.bits .f32 = 32 ∨ (Rect.block (s := S8192x2048) S256x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S8192x2048.size a
  hwx1_3 : ∀ i : grid1.Coords, EltTy.bits .f32 = 32 ∨ (Rect.block (s := S8192x2048) S256x2048.size (cc1_transform_3 i) (hinb1_3 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_v18) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x2048x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) | ⟨_ + 6, h⟩ => absurd h (Nat.not_lt.2 (Nat.le_add_left _ _))

abbrev win1_0 : Pipeline.Window sig grid1 :=
  Pipeline.Window.ofSpec (Memref.whole main_v20) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S256x2048.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S8192x2048, .f32⟩
  | .hbm, ⟨16, _⟩ => ⟨S8192x2048, .f32⟩
  | .hbm, ⟨17, _⟩ => ⟨S8192, .f32⟩
  | .hbm, ⟨18, _⟩ => ⟨S2048x8192, .f32⟩
  | .hbm, ⟨19, _⟩ => ⟨S8192x8192, .f32⟩
  | .hbm, ⟨20, _⟩ => ⟨S2048x8192, .f32⟩
  | .hbm, ⟨21, _⟩ => ⟨S8192x8192, .f32⟩
  | .hbm, ⟨22, _⟩ => ⟨S8192x8192, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  bcast_S_S8192x2048 : S_.BroadcastsInDim S8192x2048 (![] : Fin 0 → Fin S8192x2048.rank)
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.GateCallBits.lean ====
/-
  The first call (the gate kernel) on one TensorCore, at ANY contents `V` of the buffers when the call is entered.

  The grid has 4 x 64 points (gate g, batch tile b). At a point the body reads a [128, 2048] tile of x and of h, gate g's
  two [2048, 2048] weight matrices and its bias row, forms pre = x_tile . Wx_g^T + h_tile . Wh_g^T + bias, and stores into the
  output tile tanh(pre) when g = 3 and logistic(pre) when g < 3. The two conditions are read off the grid point; over the
  grid exactly one of them holds at every point, so the output tile is stored whole at every point and is a function of the
  point and of the five input blocks there (`gateOut`). An input block is what the body finds in its staging buffer at
  every point, whether or not it was fetched there: when it was not, the block index did not move.
-/
import proofs.«175041_j10453950399020_2_alg».proof.Proof.Gen.Kernel.Launch
import proofs.«175041_j10453950399020_2_alg».proof.Proof.Gen.Kernel.Skeleton
import proofs.«175041_j10453950399020_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.TwoCalls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid -/

/-- At every grid point the gate is the candidate (g = 3) or one of the three logistic gates (g < 3). -/
theorem cond_some : ∀ t : Fin cfg0.N, k0_cond1 (grid0.coords t) = 1#1 ∨ k0_cond2 (grid0.coords t) = 1#1 :=
  (by decide +kernel : ∀ t : Fin grid0.N, k0_cond1 (grid0.coords t) = 1#1 ∨ k0_cond2 (grid0.coords t) = 1#1)
/-- Never both. -/
theorem cond_excl : ∀ t : Fin cfg0.N, k0_cond1 (grid0.coords t) = 1#1 → ¬ k0_cond2 (grid0.coords t) = 1#1 :=
  (by decide +kernel : ∀ t : Fin grid0.N, k0_cond1 (grid0.coords t) = 1#1 → ¬ k0_cond2 (grid0.coords t) = 1#1)
/-- So the output window is stored at every point: no point is idle for it. -/
theorem live0_5 : ∀ t : Fin cfg0.N, cfg0.idle 5 (cfg0.grid.coords t) = false :=
  (by decide +kernel : ∀ t : Fin grid0.N, idle0 5 (grid0.coords t) = false)

/-! ## The body's accesses and what it leaves in the output tile -/

abbrev rA : Rect S128x2048 := Rect.unit (s := S128x2048) ![0, 0] S128x2048.size inb_S128x2048_S128x2048_0_0
abbrev rW : Rect S1x2048x2048 := Rect.unit (s := S1x2048x2048) ![0, 0, 0] S1x2048x2048.size inb_S1x2048x2048_S1x2048x2048_0_0_0
abbrev rB : Rect S1x1x2048 := Rect.unit (s := S1x1x2048) ![0, 0, 0] S1x1x2048.size inb_S1x1x2048_S1x1x2048_0_0_0

/-- The output tile after the body at a candidate-gate point: its one store, tanh of the pre-activation. -/
def gateTanh (x0 x1 : Vec F S128x2048 .bf16) (x2 x3 : Vec F S1x2048x2048 .bf16) (x4 : Vec F S1x1x2048 .f32) : Vec F S128x2048 .bf16 :=
  View.canon [⟨rA, k0_pay2 (View.ld x0 rA) (View.ld x1 rA) (View.ld x2 rW) (View.ld x3 rW) (View.ld x4 rB)⟩]
/-- The output tile after the body at a logistic-gate point. -/
def gateSigm (x0 x1 : Vec F S128x2048 .bf16) (x2 x3 : Vec F S1x2048x2048 .bf16) (x4 : Vec F S1x1x2048 .f32) : Vec F S128x2048 .bf16 :=
  View.canon [⟨rA, k0_pay3 (View.ld x0 rA) (View.ld x1 rA) (View.ld x2 rW) (View.ld x3 rW) (View.ld x4 rB)⟩]
/-- The output tile after the body at grid coordinates `i`. -/
def gateOut (i : grid0.Coords) (x0 x1 : Vec F S128x2048 .bf16) (x2 x3 : Vec F S1x2048x2048 .bf16) (x4 : Vec F S1x1x2048 .f32) : Vec F S128x2048 .bf16 :=
  if k0_cond1 i = 1#1 then gateTanh x0 x1 x2 x3 x4 else gateSigm x0 x1 x2 x3 x4

theorem gateOut_tanh {i : grid0.Coords} (h : k0_cond1 i = 1#1) (x0 x1 : Vec F S128x2048 .bf16) (x2 x3 : Vec F S1x2048x2048 .bf16) (x4 : Vec F S1x1x2048 .f32) : gateOut i x0 x1 x2 x3 x4 = gateTanh x0 x1 x2 x3 x4 := if_pos h
theorem gateOut_sigm {i : grid0.Coords} (h : ¬ k0_cond1 i = 1#1) (x0 x1 : Vec F S128x2048 .bf16) (x2 x3 : Vec F S1x2048x2048 .bf16) (x4 : Vec F S1x1x2048 .f32) : gateOut i x0 x1 x2 x3 x4 = gateSigm x0 x1 x2 x3 x4 := if_neg h

/-- The one store is of the whole tile, so it covers it. -/
theorem coverA (p0 : Vec F S128x2048 .bf16) (y : S128x2048.Idx) :
    ∃ pc ∈ ([⟨rA, p0⟩] : List (View.Piece (Elt F) S128x2048 .bf16)), y ∈ pc.1.set :=
  View.cover_of_tiled [⟨rA, p0⟩] S128x2048.size (by rfl) y

/-! ## The body's triple, one per case -/

set_option maxHeartbeats 1000000 in
theorem sound_gate_tanh (c : Dev nD) (E : Set ℕ) (i : grid0.Coords) (h1 : k0_cond1 i = 1#1) (h2 : ¬ k0_cond2 i = 1#1)
    (arg2 : Memref sig .tc .vmem S128x2048 .bf16) (harg2 : arg2.IsWhole) (arg3 : Memref sig .tc .vmem S128x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x1x2048 .f32) (harg6 : arg6.IsWhole) (arg7 : Memref sig .tc .vmem S128x2048 .bf16) (harg7 : arg7.IsWhole)
    (x0 x1 : Vec F S128x2048 .bf16) (x2 x3 : Vec F S1x2048x2048 .bf16) (x4 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (gateTanh x0 x1 x2 x3 x4)) -∗ K ⟨⟩))
      ⊢ wp frame (wpE (defs₀ (F := F)) Variants.none c none) E (cc0__gate_kernel i arg2 harg2 arg3 harg3 arg4 harg4 arg5 harg5 arg6 harg6 arg7 harg7) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

set_option maxHeartbeats 1000000 in
theorem sound_gate_sigm (c : Dev nD) (E : Set ℕ) (i : grid0.Coords) (h1 : ¬ k0_cond1 i = 1#1) (h2 : k0_cond2 i = 1#1)
    (arg2 : Memref sig .tc .vmem S128x2048 .bf16) (harg2 : arg2.IsWhole) (arg3 : Memref sig .tc .vmem S128x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x1x2048 .f32) (harg6 : arg6.IsWhole) (arg7 : Memref sig .tc .vmem S128x2048 .bf16) (harg7 : arg7.IsWhole)
    (x0 x1 : Vec F S128x2048 .bf16) (x2 x3 : Vec F S1x2048x2048 .bf16) (x4 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (gateSigm x0 x1 x2 x3 x4)) -∗ K ⟨⟩))
      ⊢ wp frame (wpE (defs₀ (F := F)) Variants.none c none) E (cc0__gate_kernel i arg2 harg2 arg3 harg3 arg4 harg4 arg5 harg5 arg6 harg6 arg7 harg7) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-! ## The call's proof data -/

/-- The arrays as the call finds them; after the body at point `t` each input's buffer at its block and the output's at
    `gateOut` of the point and the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateOut (grid0.coords t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = gateOut (grid0.coords t) (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the case's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  by_cases h1 : k0_cond1 (grid0.coords t) = 1#1
  · have h2 : ¬ k0_cond2 (grid0.coords t) = 1#1 := cond_excl t h1
    rw [gateOut_tanh h1]
    iapply (sound_gate_tanh c Set.univ (grid0.coords t) h1 h2 _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h2 : k0_cond2 (grid0.coords t) = 1#1 := (cond_some t).resolve_left h1
    rw [gateOut_sigm h1]
    iapply (sound_gate_sigm c Set.univ (grid0.coords t) h1 h2 _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point: the output window is live at every point (`live0_5`), so the
    obligation's post is the plain one. -/
theorem body_obligation0 (c : Dev nD) : BodyObligation (dat0 (F := F) V c) (defs₀ (F := F)) Variants.none () Set.univ := fun t => by
  rw [bigSep_W0, bigSep_W0]
  rw [live0_5 t]
  exact sound_body0 V c t

end Cert.Kernel.TwoCalls

end
-- ==== Proof.CombineCallBits.lean ====
/-
  The second call (the combine kernel) on one TensorCore, at ANY contents `V` of the buffers when the call is entered.

  The grid has 32 points, one per tile of 256 batch rows. At a point the body reads the tile's [256, 8192] block of the
  four gates side by side (columns 0.., 2048.., 4096.., 6144..: forget, input, output, candidate) and the [256, 2048]
  block of the cell state, and stores c_new = f * c + i * cand into one output tile and h_new = o * tanh c_new into the
  other, each with one whole-tile store. Both outputs are functions of the two input blocks at the point.
-/
import proofs.«175041_j10453950399020_2_alg».proof.Proof.Gen.Kernel.Launch
import proofs.«175041_j10453950399020_2_alg».proof.Proof.Gen.Kernel.Skeleton
import proofs.«175041_j10453950399020_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.TwoCalls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the two output tiles -/

abbrev rF : Rect S256x8192 := Rect.unit (s := S256x8192) ![0, 0] S256x2048.size inb_S256x8192_S256x2048_0_0
abbrev rI : Rect S256x8192 := Rect.unit (s := S256x8192) ![0, 2048] S256x2048.size inb_S256x8192_S256x2048_0_2048
abbrev rO : Rect S256x8192 := Rect.unit (s := S256x8192) ![0, 4096] S256x2048.size inb_S256x8192_S256x2048_0_4096
abbrev rT : Rect S256x8192 := Rect.unit (s := S256x8192) ![0, 6144] S256x2048.size inb_S256x8192_S256x2048_0_6144
abbrev rC : Rect S256x2048 := Rect.unit (s := S256x2048) ![0, 0] S256x2048.size inb_S256x2048_S256x2048_0_0

/-- The new cell state's tile: f * c + i * cand over the gate columns of the block and the cell block. -/
def cellOut (x0 : Vec F S256x8192 .bf16) (x1 : Vec F S256x2048 .f32) : Vec F S256x2048 .f32 :=
  View.canon [⟨rC, k1_pay1 (View.ld x0 rF) (View.ld x0 rI) (View.ld x0 rT) (View.ld x1 rC)⟩]
/-- The new hidden state's tile: o * tanh of the new cell state. -/
def hiddenOut (x0 : Vec F S256x8192 .bf16) (x1 : Vec F S256x2048 .f32) : Vec F S256x2048 .f32 :=
  View.canon [⟨rC, k1_pay2 (View.ld x0 rF) (View.ld x0 rI) (View.ld x0 rO) (View.ld x0 rT) (View.ld x1 rC)⟩]

/-- A whole-tile store covers the tile. -/
theorem coverC (p0 : Vec F S256x2048 .f32) (y : S256x2048.Idx) :
    ∃ pc ∈ ([⟨rC, p0⟩] : List (View.Piece (Elt F) S256x2048 .f32)), y ∈ pc.1.set :=
  View.cover_of_tiled [⟨rC, p0⟩] S256x2048.size (by rfl) y

/-! ## The body's triple -/

set_option maxHeartbeats 1000000 in
theorem sound_combine (c : Dev nD) (E : Set ℕ) (i : grid1.Coords)
    (arg1 : Memref sig .tc .vmem S256x8192 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole)
    (x0 : Vec F S256x8192 .bf16) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (hiddenOut x0 x1) ∗ owns (c : Thread nD τ) arg4 fullShare (cellOut x0 x1)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverC _)
  iexists _; isplitr
  swap; · iexact H3
  ipureintro
  exact View.read_writes_eq_canon _ _ _ (coverC _)

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => hiddenOut (iblk1 V c 0 t) (iblk1 V c 1 t)
    | ⟨3, _⟩ => cellOut (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = hiddenOut (iblk1 V c 0 t) (iblk1 V c 1 t) := by dsimp only [dat1]
theorem after1_3 (c : Dev nD) (t : Fin cfg1.N) : (dat1 V c).after 3 t = cellOut (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_combine c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.TwoCalls

end
-- ==== Proof.TwoCallsRunBits.lean ====
/-
  The whole program on the TensorCores: twenty host operations (the weights and biases stacked per gate, x and h
  converted), then the gate call, then the combine call.

  Between two items a core holds every unscoped buffer whole at known contents: at launch the memory; after the host
  operations their fold over it; after a call, that call's arrays at what its write-backs leave — every input array as
  entered, each output array the fold of the tiles written back — and every other buffer as entered. The second call is
  entered from exactly what the first leaves. Every weakly fair execution terminates, faults nowhere, and ends with every
  unscoped buffer at the last of these contents: the argument arrays, which no item writes, as launched, and the two
  results at what the combine call's write-backs leave.
-/
import proofs.«175041_j10453950399020_2_alg».proof.Proof.GateCallBits
import proofs.«175041_j10453950399020_2_alg».proof.Proof.CombineCallBits
import proofs.«175041_j10453950399020_2_alg».proof.Proof.Gen.Kernel.Regions

set_option maxRecDepth 16384

noncomputable section

namespace Cert.Kernel.TwoCalls

open Cert.Kernel Cert.Kernel.Gen Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The contents the gate call is entered from (after the host operations), read at the TensorCore's references. -/
abbrev E0 : (c : Dev nD) → (b : Ref sig .tc) → Buf (Elt F) ((c : Thread nD τ).loc b) := fun c b => V1 m c b
/-- After the gate call: its arrays at what the pipeline leaves, every other buffer as entered. -/
def X1 (c : Dev nD) : Valuation τ sig (Elt F) :=
  Pipeline.withArrays spec0 c (V1 m c) fun w => (dat0 (E0 m) c).arrAt w cfg0.N
theorem X1_arr (c : Dev nD) (w : Fin cfg0.W) :
    X1 m c (Proc.devRef .tc (Pipeline.arrRef spec0 w)) = (dat0 (E0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = V1 m c (Proc.devRef .tc b) := by
  unfold X1; exact Pipeline.withArrays_of_ne spec0 c _ _ b hb
/-- The same read at the TensorCore's references: what the combine call is entered from. -/
abbrev E1 : (c : Dev nD) → (b : Ref sig .tc) → Buf (Elt F) ((c : Thread nD τ).loc b) := fun c b => X1 m c b
theorem hF0 (c : Dev nD) (w : Fin cfg0.W) : (dat0 (E0 m) c).arrAt w cfg0.N = E1 m c (Pipeline.arrRef spec0 w) :=
  (X1_arr m c w).symm
theorem hrest0 (c : Dev nD) : ∀ b, b ∉ Finset.univ.image (Pipeline.arrRef spec0) → E1 m c b = E0 m c b :=
  fun b hb => X1_of_ne m c b fun w e => hb (Finset.mem_image.mpr ⟨w, Finset.mem_univ _, e⟩)

/-- After the combine call. -/
def X2 (c : Dev nD) : Valuation τ sig (Elt F) :=
  Pipeline.withArrays spec1 c (X1 m c) fun w => (dat1 (E1 m) c).arrAt w cfg1.N
theorem X2_arr (c : Dev nD) (w : Fin cfg1.W) :
    X2 m c (Proc.devRef .tc (Pipeline.arrRef spec1 w)) = (dat1 (E1 m) c).arrAt w cfg1.N := by
  unfold X2; exact Pipeline.withArrays_arr spec1 launch1.win.arr_inj c _ _ w
theorem X2_of_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
abbrev E2 : (c : Dev nD) → (b : Ref sig .tc) → Buf (Elt F) ((c : Thread nD τ).loc b) := fun c b => X2 m c b
theorem hF1 (c : Dev nD) (w : Fin cfg1.W) : (dat1 (E1 m) c).arrAt w cfg1.N = E2 m c (Pipeline.arrRef spec1 w) :=
  (X2_arr m c w).symm
theorem hrest1 (c : Dev nD) : ∀ b, b ∉ Finset.univ.image (Pipeline.arrRef spec1) → E2 m c b = E1 m c b :=
  fun b hb => X2_of_ne m c b fun w e => hb (Finset.mem_image.mpr ⟨w, Finset.mem_univ _, e⟩)

/-! ### The arguments end as launched: no host operation and no call writes one -/

theorem X2_main_arg0 (c : Dev nD) : X2 m c (Proc.devRef .tc main_arg0) = m ((c : Thread nD τ).loc main_arg0) :=
  calc X2 m c (Proc.devRef .tc main_arg0)
    _ = X1 m c (Proc.devRef .tc main_arg0) := X2_of_ne m c main_arg0 (by decide)
    _ = V1 m c (Proc.devRef .tc main_arg0) := X1_of_ne m c main_arg0 (by decide)
    _ = V0 m c (Proc.devRef .tc main_arg0) := V1_of m c main_arg0 (by decide)
    _ = m ((c : Thread nD τ).loc main_arg0) := rfl

theorem X2_main_arg1 (c : Dev nD) : X2 m c (Proc.devRef .tc main_arg1) = m ((c : Thread nD τ).loc main_arg1) :=
  calc X2 m c (Proc.devRef .tc main_arg1)
    _ = X1 m c (Proc.devRef .tc main_arg1) := X2_of_ne m c main_arg1 (by decide)
    _ = V1 m c (Proc.devRef .tc main_arg1) := X1_of_ne m c main_arg1 (by decide)
    _ = V0 m c (Proc.devRef .tc main_arg1) := V1_of m c main_arg1 (by decide)
    _ = m ((c : Thread nD τ).loc main_arg1) := rfl

theorem X2_main_arg2 (c : Dev nD) : X2 m c (Proc.devRef .tc main_arg2) = m ((c : Thread nD τ).loc main_arg2) :=
  calc X2 m c (Proc.devRef .tc main_arg2)
    _ = X1 m c (Proc.devRef .tc main_arg2) := (X2_arr m c 1).trans (((dat1 (E1 m) c).arrAt_in 1 rfl _).trans (A_eq1 (E1 m) c 1))
    _ = V1 m c (Proc.devRef .tc main_arg2) := X1_of_ne m c main_arg2 (by decide)
    _ = V0 m c (Proc.devRef .tc main_arg2) := V1_of m c main_arg2 (by decide)
    _ = m ((c : Thread nD τ).loc main_arg2) := rfl

theorem X2_main_arg3 (c : Dev nD) : X2 m c (Proc.devRef .tc main_arg3) = m ((c : Thread nD τ).loc main_arg3) :=
  calc X2 m c (Proc.devRef .tc main_arg3)
    _ = X1 m c (Proc.devRef .tc main_arg3) := X2_of_ne m c main_arg3 (by decide)
    _ = V1 m c (Proc.devRef .tc main_arg3) := X1_of_ne m c main_arg3 (by decide)
    _ = V0 m c (Proc.devRef .tc main_arg3) := V1_of m c main_arg3 (by decide)
    _ = m ((c : Thread nD τ).loc main_arg3) := rfl

theorem X2_main_arg4 (c : Dev nD) : X2 m c (Proc.devRef .tc main_arg4) = m ((c : Thread nD τ).loc main_arg4) :=
  calc X2 m c (Proc.devRef .tc main_arg4)
    _ = X1 m c (Proc.devRef .tc main_arg4) := X2_of_ne m c main_arg4 (by decide)
    _ = V1 m c (Proc.devRef .tc main_arg4) := X1_of_ne m c main_arg4 (by decide)
    _ = V0 m c (Proc.devRef .tc main_arg4) := V1_of m c main_arg4 (by decide)
    _ = m ((c : Thread nD τ).loc main_arg4) := rfl

theorem X2_main_arg5 (c : Dev nD) : X2 m c (Proc.devRef .tc main_arg5) = m ((c : Thread nD τ).loc main_arg5) :=
  calc X2 m c (Proc.devRef .tc main_arg5)
    _ = X1 m c (Proc.devRef .tc main_arg5) := X2_of_ne m c main_arg5 (by decide)
    _ = V1 m c (Proc.devRef .tc main_arg5) := X1_of_ne m c main_arg5 (by decide)
    _ = V0 m c (Proc.devRef .tc main_arg5) := V1_of m c main_arg5 (by decide)
    _ = m ((c : Thread nD τ).loc main_arg5) := rfl

theorem X2_main_arg6 (c : Dev nD) : X2 m c (Proc.devRef .tc main_arg6) = m ((c : Thread nD τ).loc main_arg6) :=
  calc X2 m c (Proc.devRef .tc main_arg6)
    _ = X1 m c (Proc.devRef .tc main_arg6) := X2_of_ne m c main_arg6 (by decide)
    _ = V1 m c (Proc.devRef .tc main_arg6) := X1_of_ne m c main_arg6 (by decide)
    _ = V0 m c (Proc.devRef .tc main_arg6) := V1_of m c main_arg6 (by decide)
    _ = m ((c : Thread nD τ).loc main_arg6) := rfl

theorem X2_main_arg7 (c : Dev nD) : X2 m c (Proc.devRef .tc main_arg7) = m ((c : Thread nD τ).loc main_arg7) :=
  calc X2 m c (Proc.devRef .tc main_arg7)
    _ = X1 m c (Proc.devRef .tc main_arg7) := X2_of_ne m c main_arg7 (by decide)
    _ = V1 m c (Proc.devRef .tc main_arg7) := X1_of_ne m c main_arg7 (by decide)
    _ = V0 m c (Proc.devRef .tc main_arg7) := V1_of m c main_arg7 (by decide)
    _ = m ((c : Thread nD τ).loc main_arg7) := rfl

theorem X2_main_arg8 (c : Dev nD) : X2 m c (Proc.devRef .tc main_arg8) = m ((c : Thread nD τ).loc main_arg8) :=
  calc X2 m c (Proc.devRef .tc main_arg8)
    _ = X1 m c (Proc.devRef .tc main_arg8) := X2_of_ne m c main_arg8 (by decide)
    _ = V1 m c (Proc.devRef .tc main_arg8) := X1_of_ne m c main_arg8 (by decide)
    _ = V0 m c (Proc.devRef .tc main_arg8) := V1_of m c main_arg8 (by decide)
    _ = m ((c : Thread nD τ).loc main_arg8) := rfl

theorem X2_main_arg9 (c : Dev nD) : X2 m c (Proc.devRef .tc main_arg9) = m ((c : Thread nD τ).loc main_arg9) :=
  calc X2 m c (Proc.devRef .tc main_arg9)
    _ = X1 m c (Proc.devRef .tc main_arg9) := X2_of_ne m c main_arg9 (by decide)
    _ = V1 m c (Proc.devRef .tc main_arg9) := X1_of_ne m c main_arg9 (by decide)
    _ = V0 m c (Proc.devRef .tc main_arg9) := V1_of m c main_arg9 (by decide)
    _ = m ((c : Thread nD τ).loc main_arg9) := rfl

theorem X2_main_arg10 (c : Dev nD) : X2 m c (Proc.devRef .tc main_arg10) = m ((c : Thread nD τ).loc main_arg10) :=
  calc X2 m c (Proc.devRef .tc main_arg10)
    _ = X1 m c (Proc.devRef .tc main_arg10) := X2_of_ne m c main_arg10 (by decide)
    _ = V1 m c (Proc.devRef .tc main_arg10) := X1_of_ne m c main_arg10 (by decide)
    _ = V0 m c (Proc.devRef .tc main_arg10) := V1_of m c main_arg10 (by decide)
    _ = m ((c : Thread nD τ).loc main_arg10) := rfl

theorem X2_main_arg11 (c : Dev nD) : X2 m c (Proc.devRef .tc main_arg11) = m ((c : Thread nD τ).loc main_arg11) :=
  calc X2 m c (Proc.devRef .tc main_arg11)
    _ = X1 m c (Proc.devRef .tc main_arg11) := X2_of_ne m c main_arg11 (by decide)
    _ = V1 m c (Proc.devRef .tc main_arg11) := X1_of_ne m c main_arg11 (by decide)
    _ = V0 m c (Proc.devRef .tc main_arg11) := V1_of m c main_arg11 (by decide)
    _ = m ((c : Thread nD τ).loc main_arg11) := rfl

theorem X2_main_arg12 (c : Dev nD) : X2 m c (Proc.devRef .tc main_arg12) = m ((c : Thread nD τ).loc main_arg12) :=
  calc X2 m c (Proc.devRef .tc main_arg12)
    _ = X1 m c (Proc.devRef .tc main_arg12) := X2_of_ne m c main_arg12 (by decide)
    _ = V1 m c (Proc.devRef .tc main_arg12) := X1_of_ne m c main_arg12 (by decide)
    _ = V0 m c (Proc.devRef .tc main_arg12) := V1_of m c main_arg12 (by decide)
    _ = m ((c : Thread nD τ).loc main_arg12) := rfl

theorem X2_main_arg13 (c : Dev nD) : X2 m c (Proc.devRef .tc main_arg13) = m ((c : Thread nD τ).loc main_arg13) :=
  calc X2 m c (Proc.devRef .tc main_arg13)
    _ = X1 m c (Proc.devRef .tc main_arg13) := X2_of_ne m c main_arg13 (by decide)
    _ = V1 m c (Proc.devRef .tc main_arg13) := X1_of_ne m c main_arg13 (by decide)
    _ = V0 m c (Proc.devRef .tc main_arg13) := V1_of m c main_arg13 (by decide)
    _ = m ((c : Thread nD τ).loc main_arg13) := rfl

theorem X2_main_arg14 (c : Dev nD) : X2 m c (Proc.devRef .tc main_arg14) = m ((c : Thread nD τ).loc main_arg14) :=
  calc X2 m c (Proc.devRef .tc main_arg14)
    _ = X1 m c (Proc.devRef .tc main_arg14) := X2_of_ne m c main_arg14 (by decide)
    _ = V1 m c (Proc.devRef .tc main_arg14) := X1_of_ne m c main_arg14 (by decide)
    _ = V0 m c (Proc.devRef .tc main_arg14) := V1_of m c main_arg14 (by decide)
    _ = m ((c : Thread nD τ).loc main_arg14) := rfl

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (X2 m c) ∗ ∃ r, prngReg c r)

/-! ## The calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution from memory `m` with zero counters terminates, nothing faulting, and every final state
    holds every unscoped buffer of every core at the contents after the combine call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X2 m c b)
    (hfin := fun c s' => by
      iintro ⟨⟨Hh, -⟩, HSI⟩
      unfold StableHlo.held
      imodintro
      iapply (pointsTo_read_all (Pipeline.ucRefs τ sig) (fun b => (((c : Thread nD τ)).1, b)) (X2 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    (h c _ (mem_uc main_arg0 (by decide))).trans (X2_main_arg0 m c),
    (h c _ (mem_uc main_arg1 (by decide))).trans (X2_main_arg1 m c),
    (h c _ (mem_uc main_arg2 (by decide))).trans (X2_main_arg2 m c),
    (h c _ (mem_uc main_arg3 (by decide))).trans (X2_main_arg3 m c),
    (h c _ (mem_uc main_arg4 (by decide))).trans (X2_main_arg4 m c),
    (h c _ (mem_uc main_arg5 (by decide))).trans (X2_main_arg5 m c),
    (h c _ (mem_uc main_arg6 (by decide))).trans (X2_main_arg6 m c),
    (h c _ (mem_uc main_arg7 (by decide))).trans (X2_main_arg7 m c),
    (h c _ (mem_uc main_arg8 (by decide))).trans (X2_main_arg8 m c),
    (h c _ (mem_uc main_arg9 (by decide))).trans (X2_main_arg9 m c),
    (h c _ (mem_uc main_arg10 (by decide))).trans (X2_main_arg10 m c),
    (h c _ (mem_uc main_arg11 (by decide))).trans (X2_main_arg11 m c),
    (h c _ (mem_uc main_arg12 (by decide))).trans (X2_main_arg12 m c),
    (h c _ (mem_uc main_arg13 (by decide))).trans (X2_main_arg13 m c),
    (h c _ (mem_uc main_arg14 (by decide))).trans (X2_main_arg14 m c)⟩) (run_all m ρ)

end Cert.Kernel.TwoCalls

end
-- ==== Proof.GateCall.lean ====
/-
  The first call (the gate kernel) on one TensorCore, at ANY contents `V` of the buffers when the call is entered.

  The grid has 4 x 64 points (gate g, batch tile b). At a point the body reads a [128, 2048] tile of x and of h, gate g's
  two [2048, 2048] weight matrices and its bias row, forms pre = x_tile . Wx_g^T + h_tile . Wh_g^T + bias, and stores into the
  output tile tanh(pre) when g = 3 and logistic(pre) when g < 3. The two conditions are read off the grid point; over the
  grid exactly one of them holds at every point, so the output tile is stored whole at every point and is a function of the
  point and of the five input blocks there (`gateOut`). An input block is what the body finds in its staging buffer at
  every point, whether or not it was fetched there: when it was not, the block index did not move.
-/
import proofs.«175041_j10453950399020_2_alg».proof.Proof.Gen.KernelIdeal.Launch
import proofs.«175041_j10453950399020_2_alg».proof.Proof.Gen.KernelIdeal.Skeleton
import proofs.«175041_j10453950399020_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.TwoCalls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The conditions over the grid -/

/-- At every grid point the gate is the candidate (g = 3) or one of the three logistic gates (g < 3). -/
theorem cond_some : ∀ t : Fin cfg0.N, k0_cond1 (grid0.coords t) = 1#1 ∨ k0_cond2 (grid0.coords t) = 1#1 :=
  (by decide +kernel : ∀ t : Fin grid0.N, k0_cond1 (grid0.coords t) = 1#1 ∨ k0_cond2 (grid0.coords t) = 1#1)
/-- Never both. -/
theorem cond_excl : ∀ t : Fin cfg0.N, k0_cond1 (grid0.coords t) = 1#1 → ¬ k0_cond2 (grid0.coords t) = 1#1 :=
  (by decide +kernel : ∀ t : Fin grid0.N, k0_cond1 (grid0.coords t) = 1#1 → ¬ k0_cond2 (grid0.coords t) = 1#1)
/-- So the output window is stored at every point: no point is idle for it. -/
theorem live0_5 : ∀ t : Fin cfg0.N, cfg0.idle 5 (cfg0.grid.coords t) = false :=
  (by decide +kernel : ∀ t : Fin grid0.N, idle0 5 (grid0.coords t) = false)

/-! ## The body's accesses and what it leaves in the output tile -/

abbrev rA : Rect S128x2048 := Rect.unit (s := S128x2048) ![0, 0] S128x2048.size inb_S128x2048_S128x2048_0_0
abbrev rW : Rect S1x2048x2048 := Rect.unit (s := S1x2048x2048) ![0, 0, 0] S1x2048x2048.size inb_S1x2048x2048_S1x2048x2048_0_0_0
abbrev rB : Rect S1x1x2048 := Rect.unit (s := S1x1x2048) ![0, 0, 0] S1x1x2048.size inb_S1x1x2048_S1x1x2048_0_0_0

/-- The output tile after the body at a candidate-gate point: its one store, tanh of the pre-activation. -/
def gateTanh (x0 x1 : Vec F S128x2048 .bf16) (x2 x3 : Vec F S1x2048x2048 .bf16) (x4 : Vec F S1x1x2048 .f32) : Vec F S128x2048 .bf16 :=
  View.canon [⟨rA, k0_pay2 (View.ld x0 rA) (View.ld x1 rA) (View.ld x2 rW) (View.ld x3 rW) (View.ld x4 rB)⟩]
/-- The output tile after the body at a logistic-gate point. -/
def gateSigm (x0 x1 : Vec F S128x2048 .bf16) (x2 x3 : Vec F S1x2048x2048 .bf16) (x4 : Vec F S1x1x2048 .f32) : Vec F S128x2048 .bf16 :=
  View.canon [⟨rA, k0_pay3 (View.ld x0 rA) (View.ld x1 rA) (View.ld x2 rW) (View.ld x3 rW) (View.ld x4 rB)⟩]
/-- The output tile after the body at grid coordinates `i`. -/
def gateOut (i : grid0.Coords) (x0 x1 : Vec F S128x2048 .bf16) (x2 x3 : Vec F S1x2048x2048 .bf16) (x4 : Vec F S1x1x2048 .f32) : Vec F S128x2048 .bf16 :=
  if k0_cond1 i = 1#1 then gateTanh x0 x1 x2 x3 x4 else gateSigm x0 x1 x2 x3 x4

theorem gateOut_tanh {i : grid0.Coords} (h : k0_cond1 i = 1#1) (x0 x1 : Vec F S128x2048 .bf16) (x2 x3 : Vec F S1x2048x2048 .bf16) (x4 : Vec F S1x1x2048 .f32) : gateOut i x0 x1 x2 x3 x4 = gateTanh x0 x1 x2 x3 x4 := if_pos h
theorem gateOut_sigm {i : grid0.Coords} (h : ¬ k0_cond1 i = 1#1) (x0 x1 : Vec F S128x2048 .bf16) (x2 x3 : Vec F S1x2048x2048 .bf16) (x4 : Vec F S1x1x2048 .f32) : gateOut i x0 x1 x2 x3 x4 = gateSigm x0 x1 x2 x3 x4 := if_neg h

/-- The one store is of the whole tile, so it covers it. -/
theorem coverA (p0 : Vec F S128x2048 .bf16) (y : S128x2048.Idx) :
    ∃ pc ∈ ([⟨rA, p0⟩] : List (View.Piece (Elt F) S128x2048 .bf16)), y ∈ pc.1.set :=
  View.cover_of_tiled [⟨rA, p0⟩] S128x2048.size (by rfl) y

/-! ## The body's triple, one per case -/

set_option maxHeartbeats 1000000 in
theorem sound_gate_tanh (c : Dev nD) (E : Set ℕ) (i : grid0.Coords) (h1 : k0_cond1 i = 1#1) (h2 : ¬ k0_cond2 i = 1#1)
    (arg2 : Memref sig .tc .vmem S128x2048 .bf16) (harg2 : arg2.IsWhole) (arg3 : Memref sig .tc .vmem S128x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x1x2048 .f32) (harg6 : arg6.IsWhole) (arg7 : Memref sig .tc .vmem S128x2048 .bf16) (harg7 : arg7.IsWhole)
    (x0 x1 : Vec F S128x2048 .bf16) (x2 x3 : Vec F S1x2048x2048 .bf16) (x4 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (gateTanh x0 x1 x2 x3 x4)) -∗ K ⟨⟩))
      ⊢ wp frame (wpE (defs₀ (F := F)) Variants.none c none) E (cc0__gate_kernel i arg2 harg2 arg3 harg3 arg4 harg4 arg5 harg5 arg6 harg6 arg7 harg7) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

set_option maxHeartbeats 1000000 in
theorem sound_gate_sigm (c : Dev nD) (E : Set ℕ) (i : grid0.Coords) (h1 : ¬ k0_cond1 i = 1#1) (h2 : k0_cond2 i = 1#1)
    (arg2 : Memref sig .tc .vmem S128x2048 .bf16) (harg2 : arg2.IsWhole) (arg3 : Memref sig .tc .vmem S128x2048 .bf16) (harg3 : arg3.IsWhole) (arg4 : Memref sig .tc .vmem S1x2048x2048 .bf16) (harg4 : arg4.IsWhole) (arg5 : Memref sig .tc .vmem S1x2048x2048 .bf16) (harg5 : arg5.IsWhole) (arg6 : Memref sig .tc .vmem S1x1x2048 .f32) (harg6 : arg6.IsWhole) (arg7 : Memref sig .tc .vmem S128x2048 .bf16) (harg7 : arg7.IsWhole)
    (x0 x1 : Vec F S128x2048 .bf16) (x2 x3 : Vec F S1x2048x2048 .bf16) (x4 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (gateSigm x0 x1 x2 x3 x4)) -∗ K ⟨⟩))
      ⊢ wp frame (wpE (defs₀ (F := F)) Variants.none c none) E (cc0__gate_kernel i arg2 harg2 arg3 harg3 arg4 harg4 arg5 harg5 arg6 harg6 arg7 harg7) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-! ## The call's proof data -/

/-- The arrays as the call finds them; after the body at point `t` each input's buffer at its block and the output's at
    `gateOut` of the point and the input blocks; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => gateOut (grid0.coords t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = gateOut (grid0.coords t) (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the case's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  by_cases h1 : k0_cond1 (grid0.coords t) = 1#1
  · have h2 : ¬ k0_cond2 (grid0.coords t) = 1#1 := cond_excl t h1
    rw [gateOut_tanh h1]
    iapply (sound_gate_tanh c Set.univ (grid0.coords t) h1 h2 _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · have h2 : k0_cond2 (grid0.coords t) = 1#1 := (cond_some t).resolve_left h1
    rw [gateOut_sigm h1]
    iapply (sound_gate_sigm c Set.univ (grid0.coords t) h1 h2 _ _ _ _ _ _ _ _ _ _ _ _
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point: the output window is live at every point (`live0_5`), so the
    obligation's post is the plain one. -/
theorem body_obligation0 (c : Dev nD) : BodyObligation (dat0 (F := F) V c) (defs₀ (F := F)) Variants.none () Set.univ := fun t => by
  rw [bigSep_W0, bigSep_W0]
  rw [live0_5 t]
  exact sound_body0 V c t

end Cert.KernelIdeal.TwoCalls

end
-- ==== Proof.CombineCall.lean ====
/-
  The second call (the combine kernel) on one TensorCore, at ANY contents `V` of the buffers when the call is entered.

  The grid has 32 points, one per tile of 256 batch rows. At a point the body reads the tile's [256, 8192] block of the
  four gates side by side (columns 0.., 2048.., 4096.., 6144..: forget, input, output, candidate) and the [256, 2048]
  block of the cell state, and stores c_new = f * c + i * cand into one output tile and h_new = o * tanh c_new into the
  other, each with one whole-tile store. Both outputs are functions of the two input blocks at the point.
-/
import proofs.«175041_j10453950399020_2_alg».proof.Proof.Gen.KernelIdeal.Launch
import proofs.«175041_j10453950399020_2_alg».proof.Proof.Gen.KernelIdeal.Skeleton
import proofs.«175041_j10453950399020_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.TwoCalls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses and what it leaves in the two output tiles -/

abbrev rF : Rect S256x8192 := Rect.unit (s := S256x8192) ![0, 0] S256x2048.size inb_S256x8192_S256x2048_0_0
abbrev rI : Rect S256x8192 := Rect.unit (s := S256x8192) ![0, 2048] S256x2048.size inb_S256x8192_S256x2048_0_2048
abbrev rO : Rect S256x8192 := Rect.unit (s := S256x8192) ![0, 4096] S256x2048.size inb_S256x8192_S256x2048_0_4096
abbrev rT : Rect S256x8192 := Rect.unit (s := S256x8192) ![0, 6144] S256x2048.size inb_S256x8192_S256x2048_0_6144
abbrev rC : Rect S256x2048 := Rect.unit (s := S256x2048) ![0, 0] S256x2048.size inb_S256x2048_S256x2048_0_0

/-- The new cell state's tile: f * c + i * cand over the gate columns of the block and the cell block. -/
def cellOut (x0 : Vec F S256x8192 .bf16) (x1 : Vec F S256x2048 .f32) : Vec F S256x2048 .f32 :=
  View.canon [⟨rC, k1_pay1 (View.ld x0 rF) (View.ld x0 rI) (View.ld x0 rT) (View.ld x1 rC)⟩]
/-- The new hidden state's tile: o * tanh of the new cell state. -/
def hiddenOut (x0 : Vec F S256x8192 .bf16) (x1 : Vec F S256x2048 .f32) : Vec F S256x2048 .f32 :=
  View.canon [⟨rC, k1_pay2 (View.ld x0 rF) (View.ld x0 rI) (View.ld x0 rO) (View.ld x0 rT) (View.ld x1 rC)⟩]

/-- A whole-tile store covers the tile. -/
theorem coverC (p0 : Vec F S256x2048 .f32) (y : S256x2048.Idx) :
    ∃ pc ∈ ([⟨rC, p0⟩] : List (View.Piece (Elt F) S256x2048 .f32)), y ∈ pc.1.set :=
  View.cover_of_tiled [⟨rC, p0⟩] S256x2048.size (by rfl) y

/-! ## The body's triple -/

set_option maxHeartbeats 1000000 in
theorem sound_combine (c : Dev nD) (E : Set ℕ) (i : grid1.Coords)
    (arg1 : Memref sig .tc .vmem S256x8192 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole)
    (x0 : Vec F S256x8192 .bf16) (x1 : Vec F S256x2048 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (hiddenOut x0 x1) ∗ owns (c : Thread nD τ) arg4 fullShare (cellOut x0 x1)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverC _)
  iexists _; isplitr
  swap; · iexact H3
  ipureintro
  exact View.read_writes_eq_canon _ _ _ (coverC _)

/-! ## The call's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => hiddenOut (iblk1 V c 0 t) (iblk1 V c 1 t)
    | ⟨3, _⟩ => cellOut (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = hiddenOut (iblk1 V c 0 t) (iblk1 V c 1 t) := by dsimp only [dat1]
theorem after1_3 (c : Dev nD) (t : Fin cfg1.N) : (dat1 V c).after 3 t = cellOut (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_combine c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.TwoCalls

end
-- ==== Proof.TwoCallsRun.lean ====
/-
  The whole program on the TensorCores: twenty host operations (the weights and biases stacked per gate, x and h
  converted), then the gate call, then the combine call.

  Between two items a core holds every unscoped buffer whole at known contents: at launch the memory; after the host
  operations their fold over it; after a call, that call's arrays at what its write-backs leave — every input array as
  entered, each output array the fold of the tiles written back — and every other buffer as entered. The second call is
  entered from exactly what the first leaves. Every weakly fair execution terminates, faults nowhere, and ends with every
  unscoped buffer at the last of these contents: the argument arrays, which no item writes, as launched, and the two
  results at what the combine call's write-backs leave.
-/
import proofs.«175041_j10453950399020_2_alg».proof.Proof.GateCall
import proofs.«175041_j10453950399020_2_alg».proof.Proof.CombineCall
import proofs.«175041_j10453950399020_2_alg».proof.Proof.Gen.KernelIdeal.Regions

set_option maxRecDepth 16384

noncomputable section

namespace Cert.KernelIdeal.TwoCalls

open Cert.KernelIdeal Cert.KernelIdeal.Gen Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- The contents the gate call is entered from (after the host operations), read at the TensorCore's references. -/
abbrev E0 : (c : Dev nD) → (b : Ref sig .tc) → Buf (Elt F) ((c : Thread nD τ).loc b) := fun c b => V1 m c b
/-- After the gate call: its arrays at what the pipeline leaves, every other buffer as entered. -/
def X1 (c : Dev nD) : Valuation τ sig (Elt F) :=
  Pipeline.withArrays spec0 c (V1 m c) fun w => (dat0 (E0 m) c).arrAt w cfg0.N
theorem X1_arr (c : Dev nD) (w : Fin cfg0.W) :
    X1 m c (Proc.devRef .tc (Pipeline.arrRef spec0 w)) = (dat0 (E0 m) c).arrAt w cfg0.N := by
  unfold X1; exact Pipeline.withArrays_arr spec0 launch0.win.arr_inj c _ _ w
theorem X1_of_ne (c : Dev nD) (b : Ref sig .tc) (hb : ∀ w, Pipeline.arrRef spec0 w ≠ b) :
    X1 m c (Proc.devRef .tc b) = V1 m c (Proc.devRef .tc b) := by
  unfold X1; exact Pipeline.withArrays_of_ne spec0 c _ _ b hb
/-- The same read at the TensorCore's references: what the combine call is entered from. -/
abbrev E1 : (c : Dev nD) → (b : Ref sig .tc) → Buf (Elt F) ((c : Thread nD τ).loc b) := fun c b => X1 m c b
theorem hF0 (c : Dev nD) (w : Fin cfg0.W) : (dat0 (E0 m) c).arrAt w cfg0.N = E1 m c (Pipeline.arrRef spec0 w) :=
  (X1_arr m c w).symm
theorem hrest0 (c : Dev nD) : ∀ b, b ∉ Finset.univ.image (Pipeline.arrRef spec0) → E1 m c b = E0 m c b :=
  fun b hb => X1_of_ne m c b fun w e => hb (Finset.mem_image.mpr ⟨w, Finset.mem_univ _, e⟩)

/-- After the combine call. -/
def X2 (c : Dev nD) : Valuation τ sig (Elt F) :=
  Pipeline.withArrays spec1 c (X1 m c) fun w => (dat1 (E1 m) c).arrAt w cfg1.N
theorem X2_arr (c : Dev nD) (w : Fin cfg1.W) :
    X2 m c (Proc.devRef .tc (Pipeline.arrRef spec1 w)) = (dat1 (E1 m) c).arrAt w cfg1.N := by
  unfold X2; exact Pipeline.withArrays_arr spec1 launch1.win.arr_inj c _ _ w
theorem X2_of_ne (c : Dev nD) (b : Ref sig .tc) (hb : ∀ w, Pipeline.arrRef spec1 w ≠ b) :
    X2 m c (Proc.devRef .tc b) = X1 m c (Proc.devRef .tc b) := by
  unfold X2; exact Pipeline.withArrays_of_ne spec1 c _ _ b hb
abbrev E2 : (c : Dev nD) → (b : Ref sig .tc) → Buf (Elt F) ((c : Thread nD τ).loc b) := fun c b => X2 m c b
theorem hF1 (c : Dev nD) (w : Fin cfg1.W) : (dat1 (E1 m) c).arrAt w cfg1.N = E2 m c (Pipeline.arrRef spec1 w) :=
  (X2_arr m c w).symm
theorem hrest1 (c : Dev nD) : ∀ b, b ∉ Finset.univ.image (Pipeline.arrRef spec1) → E2 m c b = E1 m c b :=
  fun b hb => X2_of_ne m c b fun w e => hb (Finset.mem_image.mpr ⟨w, Finset.mem_univ _, e⟩)

/-! ### The arguments end as launched: no host operation and no call writes one -/

theorem X2_main_arg0 (c : Dev nD) : X2 m c (Proc.devRef .tc main_arg0) = m ((c : Thread nD τ).loc main_arg0) :=
  calc X2 m c (Proc.devRef .tc main_arg0)
    _ = X1 m c (Proc.devRef .tc main_arg0) := X2_of_ne m c main_arg0 (by decide)
    _ = V1 m c (Proc.devRef .tc main_arg0) := X1_of_ne m c main_arg0 (by decide)
    _ = V0 m c (Proc.devRef .tc main_arg0) := V1_of m c main_arg0 (by decide)
    _ = m ((c : Thread nD τ).loc main_arg0) := rfl

theorem X2_main_arg1 (c : Dev nD) : X2 m c (Proc.devRef .tc main_arg1) = m ((c : Thread nD τ).loc main_arg1) :=
  calc X2 m c (Proc.devRef .tc main_arg1)
    _ = X1 m c (Proc.devRef .tc main_arg1) := X2_of_ne m c main_arg1 (by decide)
    _ = V1 m c (Proc.devRef .tc main_arg1) := X1_of_ne m c main_arg1 (by decide)
    _ = V0 m c (Proc.devRef .tc main_arg1) := V1_of m c main_arg1 (by decide)
    _ = m ((c : Thread nD τ).loc main_arg1) := rfl

theorem X2_main_arg2 (c : Dev nD) : X2 m c (Proc.devRef .tc main_arg2) = m ((c : Thread nD τ).loc main_arg2) :=
  calc X2 m c (Proc.devRef .tc main_arg2)
    _ = X1 m c (Proc.devRef .tc main_arg2) := (X2_arr m c 1).trans (((dat1 (E1 m) c).arrAt_in 1 rfl _).trans (A_eq1 (E1 m) c 1))
    _ = V1 m c (Proc.devRef .tc main_arg2) := X1_of_ne m c main_arg2 (by decide)
    _ = V0 m c (Proc.devRef .tc main_arg2) := V1_of m c main_arg2 (by decide)
    _ = m ((c : Thread nD τ).loc main_arg2) := rfl

theorem X2_main_arg3 (c : Dev nD) : X2 m c (Proc.devRef .tc main_arg3) = m ((c : Thread nD τ).loc main_arg3) :=
  calc X2 m c (Proc.devRef .tc main_arg3)
    _ = X1 m c (Proc.devRef .tc main_arg3) := X2_of_ne m c main_arg3 (by decide)
    _ = V1 m c (Proc.devRef .tc main_arg3) := X1_of_ne m c main_arg3 (by decide)
    _ = V0 m c (Proc.devRef .tc main_arg3) := V1_of m c main_arg3 (by decide)
    _ = m ((c : Thread nD τ).loc main_arg3) := rfl

theorem X2_main_arg4 (c : Dev nD) : X2 m c (Proc.devRef .tc main_arg4) = m ((c : Thread nD τ).loc main_arg4) :=
  calc X2 m c (Proc.devRef .tc main_arg4)
    _ = X1 m c (Proc.devRef .tc main_arg4) := X2_of_ne m c main_arg4 (by decide)
    _ = V1 m c (Proc.devRef .tc main_arg4) := X1_of_ne m c main_arg4 (by decide)
    _ = V0 m c (Proc.devRef .tc main_arg4) := V1_of m c main_arg4 (by decide)
    _ = m ((c : Thread nD τ).loc main_arg4) := rfl

theorem X2_main_arg5 (c : Dev nD) : X2 m c (Proc.devRef .tc main_arg5) = m ((c : Thread nD τ).loc main_arg5) :=
  calc X2 m c (Proc.devRef .tc main_arg5)
    _ = X1 m c (Proc.devRef .tc main_arg5) := X2_of_ne m c main_arg5 (by decide)
    _ = V1 m c (Proc.devRef .tc main_arg5) := X1_of_ne m c main_arg5 (by decide)
    _ = V0 m c (Proc.devRef .tc main_arg5) := V1_of m c main_arg5 (by decide)
    _ = m ((c : Thread nD τ).loc main_arg5) := rfl

theorem X2_main_arg6 (c : Dev nD) : X2 m c (Proc.devRef .tc main_arg6) = m ((c : Thread nD τ).loc main_arg6) :=
  calc X2 m c (Proc.devRef .tc main_arg6)
    _ = X1 m c (Proc.devRef .tc main_arg6) := X2_of_ne m c main_arg6 (by decide)
    _ = V1 m c (Proc.devRef .tc main_arg6) := X1_of_ne m c main_arg6 (by decide)
    _ = V0 m c (Proc.devRef .tc main_arg6) := V1_of m c main_arg6 (by decide)
    _ = m ((c : Thread nD τ).loc main_arg6) := rfl

theorem X2_main_arg7 (c : Dev nD) : X2 m c (Proc.devRef .tc main_arg7) = m ((c : Thread nD τ).loc main_arg7) :=
  calc X2 m c (Proc.devRef .tc main_arg7)
    _ = X1 m c (Proc.devRef .tc main_arg7) := X2_of_ne m c main_arg7 (by decide)
    _ = V1 m c (Proc.devRef .tc main_arg7) := X1_of_ne m c main_arg7 (by decide)
    _ = V0 m c (Proc.devRef .tc main_arg7) := V1_of m c main_arg7 (by decide)
    _ = m ((c : Thread nD τ).loc main_arg7) := rfl

theorem X2_main_arg8 (c : Dev nD) : X2 m c (Proc.devRef .tc main_arg8) = m ((c : Thread nD τ).loc main_arg8) :=
  calc X2 m c (Proc.devRef .tc main_arg8)
    _ = X1 m c (Proc.devRef .tc main_arg8) := X2_of_ne m c main_arg8 (by decide)
    _ = V1 m c (Proc.devRef .tc main_arg8) := X1_of_ne m c main_arg8 (by decide)
    _ = V0 m c (Proc.devRef .tc main_arg8) := V1_of m c main_arg8 (by decide)
    _ = m ((c : Thread nD τ).loc main_arg8) := rfl

theorem X2_main_arg9 (c : Dev nD) : X2 m c (Proc.devRef .tc main_arg9) = m ((c : Thread nD τ).loc main_arg9) :=
  calc X2 m c (Proc.devRef .tc main_arg9)
    _ = X1 m c (Proc.devRef .tc main_arg9) := X2_of_ne m c main_arg9 (by decide)
    _ = V1 m c (Proc.devRef .tc main_arg9) := X1_of_ne m c main_arg9 (by decide)
    _ = V0 m c (Proc.devRef .tc main_arg9) := V1_of m c main_arg9 (by decide)
    _ = m ((c : Thread nD τ).loc main_arg9) := rfl

theorem X2_main_arg10 (c : Dev nD) : X2 m c (Proc.devRef .tc main_arg10) = m ((c : Thread nD τ).loc main_arg10) :=
  calc X2 m c (Proc.devRef .tc main_arg10)
    _ = X1 m c (Proc.devRef .tc main_arg10) := X2_of_ne m c main_arg10 (by decide)
    _ = V1 m c (Proc.devRef .tc main_arg10) := X1_of_ne m c main_arg10 (by decide)
    _ = V0 m c (Proc.devRef .tc main_arg10) := V1_of m c main_arg10 (by decide)
    _ = m ((c : Thread nD τ).loc main_arg10) := rfl

theorem X2_main_arg11 (c : Dev nD) : X2 m c (Proc.devRef .tc main_arg11) = m ((c : Thread nD τ).loc main_arg11) :=
  calc X2 m c (Proc.devRef .tc main_arg11)
    _ = X1 m c (Proc.devRef .tc main_arg11) := X2_of_ne m c main_arg11 (by decide)
    _ = V1 m c (Proc.devRef .tc main_arg11) := X1_of_ne m c main_arg11 (by decide)
    _ = V0 m c (Proc.devRef .tc main_arg11) := V1_of m c main_arg11 (by decide)
    _ = m ((c : Thread nD τ).loc main_arg11) := rfl

theorem X2_main_arg12 (c : Dev nD) : X2 m c (Proc.devRef .tc main_arg12) = m ((c : Thread nD τ).loc main_arg12) :=
  calc X2 m c (Proc.devRef .tc main_arg12)
    _ = X1 m c (Proc.devRef .tc main_arg12) := X2_of_ne m c main_arg12 (by decide)
    _ = V1 m c (Proc.devRef .tc main_arg12) := X1_of_ne m c main_arg12 (by decide)
    _ = V0 m c (Proc.devRef .tc main_arg12) := V1_of m c main_arg12 (by decide)
    _ = m ((c : Thread nD τ).loc main_arg12) := rfl

theorem X2_main_arg13 (c : Dev nD) : X2 m c (Proc.devRef .tc main_arg13) = m ((c : Thread nD τ).loc main_arg13) :=
  calc X2 m c (Proc.devRef .tc main_arg13)
    _ = X1 m c (Proc.devRef .tc main_arg13) := X2_of_ne m c main_arg13 (by decide)
    _ = V1 m c (Proc.devRef .tc main_arg13) := X1_of_ne m c main_arg13 (by decide)
    _ = V0 m c (Proc.devRef .tc main_arg13) := V1_of m c main_arg13 (by decide)
    _ = m ((c : Thread nD τ).loc main_arg13) := rfl

theorem X2_main_arg14 (c : Dev nD) : X2 m c (Proc.devRef .tc main_arg14) = m ((c : Thread nD τ).loc main_arg14) :=
  calc X2 m c (Proc.devRef .tc main_arg14)
    _ = X1 m c (Proc.devRef .tc main_arg14) := X2_of_ne m c main_arg14 (by decide)
    _ = V1 m c (Proc.devRef .tc main_arg14) := X1_of_ne m c main_arg14 (by decide)
    _ = V0 m c (Proc.devRef .tc main_arg14) := V1_of m c main_arg14 (by decide)
    _ = m ((c : Thread nD τ).loc main_arg14) := rfl

/-! ## The proof data family and the thread state -/

/-- Each call's proof data at its entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (X2 m c) ∗ ∃ r, prngReg c r)

/-! ## The calls as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (X1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (X1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

set_option backward.isDefEq.respectTransparency.types false in
/-- Every weakly fair execution from memory `m` with zero counters terminates, nothing faulting, and every final state
    holds every unscoped buffer of every core at the contents after the combine call. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = X2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X2 m c b)
    (hfin := fun c s' => by
      iintro ⟨⟨Hh, -⟩, HSI⟩
      unfold StableHlo.held
      imodintro
      iapply (pointsTo_read_all (Pipeline.ucRefs τ sig) (fun b => (((c : Thread nD τ)).1, b)) (X2 m c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    (h c _ (mem_uc main_arg0 (by decide))).trans (X2_main_arg0 m c),
    (h c _ (mem_uc main_arg1 (by decide))).trans (X2_main_arg1 m c),
    (h c _ (mem_uc main_arg2 (by decide))).trans (X2_main_arg2 m c),
    (h c _ (mem_uc main_arg3 (by decide))).trans (X2_main_arg3 m c),
    (h c _ (mem_uc main_arg4 (by decide))).trans (X2_main_arg4 m c),
    (h c _ (mem_uc main_arg5 (by decide))).trans (X2_main_arg5 m c),
    (h c _ (mem_uc main_arg6 (by decide))).trans (X2_main_arg6 m c),
    (h c _ (mem_uc main_arg7 (by decide))).trans (X2_main_arg7 m c),
    (h c _ (mem_uc main_arg8 (by decide))).trans (X2_main_arg8 m c),
    (h c _ (mem_uc main_arg9 (by decide))).trans (X2_main_arg9 m c),
    (h c _ (mem_uc main_arg10 (by decide))).trans (X2_main_arg10 m c),
    (h c _ (mem_uc main_arg11 (by decide))).trans (X2_main_arg11 m c),
    (h c _ (mem_uc main_arg12 (by decide))).trans (X2_main_arg12 m c),
    (h c _ (mem_uc main_arg13 (by decide))).trans (X2_main_arg13 m c),
    (h c _ (mem_uc main_arg14 (by decide))).trans (X2_main_arg14 m c)⟩) (run_all m ρ)

end Cert.KernelIdeal.TwoCalls

end
-- ==== Proof.PayloadAt.lean ====
/-
  The two kernel bodies' arithmetic, read one entry at a time on the extended reals.

  The gate body's first payload is, at row p and column q of its [128, 2048] block,
      (sum_k x[p,k] * Wx[0,q,k] + sum_k h[p,k] * Wh[0,q,k]) + b[0,0,q]:
  each matrix product contracts the second axis of both operands (the weights are stored [out, in]), accumulates
  into the zero array, and the bias row is the same for every row of the block. The two other gate payloads apply
  tanh, respectively the logistic function, to that entry; the format changes are the identity on extended reals.
  The combine body's payloads are entrywise products and sums of its operands.
-/
import proofs.«175041_j10453950399020_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-! ## The matrix product at an entry -/

/-- The left operand's index at output entry i and contraction position c keeps the output's row. -/
private theorem lhs_0 (i : S128x2048.Idx) (c : dot_S128x2048_S2048x2048_S128x2048_1_1_0_0_n_n.contr.Idx) :
    (dot_S128x2048_S2048x2048_S128x2048_1_1_0_0_n_n.lhsIdx i c 0).val = (i 0).val := by
  unfold DotDims.lhsIdx
  rw [dif_neg (show ¬(0 : Fin S128x2048.rank) ∈ dot_S128x2048_S2048x2048_S128x2048_1_1_0_0_n_n.lhsBatch by decide),
    dif_pos (show (0 : Fin S128x2048.rank) ∈ dot_S128x2048_S2048x2048_S128x2048_1_1_0_0_n_n.lhsNonContracting by decide)]
  rfl

/-- Its column is the contraction position. -/
private theorem lhs_1 (i : S128x2048.Idx) (c : dot_S128x2048_S2048x2048_S128x2048_1_1_0_0_n_n.contr.Idx) :
    (dot_S128x2048_S2048x2048_S128x2048_1_1_0_0_n_n.lhsIdx i c 1).val = (c ⟨0, by decide⟩).val :=
  dot_S128x2048_S2048x2048_S128x2048_1_1_0_0_n_n.lhsIdx_val_of_single rfl i c

/-- The right operand's row is the output's column (the weights are stored [out, in]). -/
private theorem rhs_0 (i : S128x2048.Idx) (c : dot_S128x2048_S2048x2048_S128x2048_1_1_0_0_n_n.contr.Idx) :
    (dot_S128x2048_S2048x2048_S128x2048_1_1_0_0_n_n.rhsIdx i c 0).val = (i 1).val := by
  unfold DotDims.rhsIdx
  rw [dif_neg (show ¬(0 : Fin S2048x2048.rank) ∈ dot_S128x2048_S2048x2048_S128x2048_1_1_0_0_n_n.rhsBatch by decide),
    dif_pos (show (0 : Fin S2048x2048.rank) ∈ dot_S128x2048_S2048x2048_S128x2048_1_1_0_0_n_n.rhsNonContracting by decide)]
  rfl

/-- Its column is the contraction position. -/
private theorem rhs_1 (i : S128x2048.Idx) (c : dot_S128x2048_S2048x2048_S128x2048_1_1_0_0_n_n.contr.Idx) :
    (dot_S128x2048_S2048x2048_S128x2048_1_1_0_0_n_n.rhsIdx i c 1).val = (c ⟨0, by decide⟩).val :=
  dot_S128x2048_S2048x2048_S128x2048_1_1_0_0_n_n.rhsIdx_val_of_single rfl i c

/-- The product of a [128, 2048] block with a [2048, 2048] matrix stored [out, in], accumulated into zero, read at
    (p, q): the sum over k of the block at (p, k) times the matrix at (q, k). -/
private theorem matmul_at (a : FVec Ideal S128x2048 .bf16) (b : FVec Ideal S2048x2048 .bf16) (p : Fin 128) (q : Fin 2048) :
    matmul dot_S128x2048_S2048x2048_S128x2048_1_1_0_0_n_n none a b (constant (F := Ideal) S128x2048 .f32 0x00000000#32) (ix2 p q)
      = ∑ k : Fin 2048, a (ix2 p k) * b (ix2 q k) := by
  simp only [matmul]
  rw [Ideal.matmul_constant_zero_apply,
    ← Equiv.sum_comp (contrEquiv1 dot_S128x2048_S2048x2048_S128x2048_1_1_0_0_n_n 2048 rfl rfl).symm]
  refine Finset.sum_congr rfl fun k _ => ?_
  have hk := contrEquiv1_symm_val dot_S128x2048_S2048x2048_S128x2048_1_1_0_0_n_n 2048 rfl rfl k
  have el : dot_S128x2048_S2048x2048_S128x2048_1_1_0_0_n_n.lhsIdx (ix2 p q)
      ((contrEquiv1 dot_S128x2048_S2048x2048_S128x2048_1_1_0_0_n_n 2048 rfl rfl).symm k) = ix2 p k :=
    funext fun ax => Fin.ext (by
      match ax with
      | ⟨0, _⟩ => exact lhs_0 _ _
      | ⟨1, _⟩ => exact (lhs_1 _ _).trans hk)
  have er : dot_S128x2048_S2048x2048_S128x2048_1_1_0_0_n_n.rhsIdx (ix2 p q)
      ((contrEquiv1 dot_S128x2048_S2048x2048_S128x2048_1_1_0_0_n_n 2048 rfl rfl).symm k) = ix2 q k :=
    funext fun ax => Fin.ext (by
      match ax with
      | ⟨0, _⟩ => exact rhs_0 _ _
      | ⟨1, _⟩ => exact (rhs_1 _ _).trans hk)
  rw [el, er]

/-! ## The gate body -/

/-- The gate body's pre-activation at (p, q). -/
theorem k0_pay1_at (v0 v2 : Vec Ideal S128x2048 .bf16) (v4 v6 : Vec Ideal S1x2048x2048 .bf16) (v8 : Vec Ideal S1x1x2048 .f32)
    (p : Fin 128) (q : Fin 2048) :
    k0_pay1 (F := Ideal) v0 v2 v4 v6 v8 (ix2 p q)
      = ((∑ k : Fin 2048, v0 (ix2 p k) * v4 (ix3 0 q k)) + ∑ k : Fin 2048, v2 (ix2 p k) * v6 (ix3 0 q k)) + v8 (ix3 0 0 q) := by
  unfold k0_pay1
  rw [shapeCast_self v0, shapeCast_self v2]
  show (matmul dot_S128x2048_S2048x2048_S128x2048_1_1_0_0_n_n none v0 _ (constant (F := Ideal) S128x2048 .f32 0x00000000#32) (ix2 p q)
      + matmul dot_S128x2048_S2048x2048_S128x2048_1_1_0_0_n_n none v2 _ (constant (F := Ideal) S128x2048 .f32 0x00000000#32) (ix2 p q))
      + broadcastTo S128x2048 _ broadcasts_S1x2048_S128x2048 (ix2 p q) = _
  rw [matmul_at, matmul_at, broadcastTo_1b_ab_apply, shapeCast_1ab_ab_apply]
  refine congrArg₂ (· + ·) (congrArg₂ (· + ·) ?_ ?_) rfl
  · exact Finset.sum_congr rfl fun k _ => congrArg (v0 (ix2 p k) * ·) (shapeCast_1ab_ab_apply v4 _ q k)
  · exact Finset.sum_congr rfl fun k _ => congrArg (v2 (ix2 p k) * ·) (shapeCast_1ab_ab_apply v6 _ q k)

/-- The candidate's payload: tanh of the pre-activation (the narrowing format change is the identity). -/
theorem k0_pay2_at (v0 v2 : Vec Ideal S128x2048 .bf16) (v4 v6 : Vec Ideal S1x2048x2048 .bf16) (v8 : Vec Ideal S1x1x2048 .f32)
    (p : Fin 128) (q : Fin 2048) :
    k0_pay2 (F := Ideal) v0 v2 v4 v6 v8 (ix2 p q) = Ideal.tanh (k0_pay1 (F := Ideal) v0 v2 v4 v6 v8 (ix2 p q)) := rfl

/-- A gate's payload: the logistic function of the pre-activation. -/
theorem k0_pay3_at (v0 v2 : Vec Ideal S128x2048 .bf16) (v4 v6 : Vec Ideal S1x2048x2048 .bf16) (v8 : Vec Ideal S1x1x2048 .f32)
    (p : Fin 128) (q : Fin 2048) :
    k0_pay3 (F := Ideal) v0 v2 v4 v6 v8 (ix2 p q) = Ideal.logistic (k0_pay1 (F := Ideal) v0 v2 v4 v6 v8 (ix2 p q)) := rfl

/-! ## The combine body -/

/-- The new cell state at (p, q): first gate times the old state plus second gate times the candidate. -/
theorem k1_pay1_at (v0 v3 v9 : Vec Ideal S256x2048 .bf16) (v12 : Vec Ideal S256x2048 .f32) (p : Fin 256) (q : Fin 2048) :
    k1_pay1 (F := Ideal) v0 v3 v9 v12 (ix2 p q) = v0 (ix2 p q) * v12 (ix2 p q) + v3 (ix2 p q) * v9 (ix2 p q) := by
  unfold k1_pay1
  rw [shapeCast_self v0, shapeCast_self v3, shapeCast_self v9]
  rfl

/-- The new hidden state at (p, q): the output gate times tanh of the new cell state. -/
theorem k1_pay2_at (v0 v3 v6 v9 : Vec Ideal S256x2048 .bf16) (v12 : Vec Ideal S256x2048 .f32) (p : Fin 256) (q : Fin 2048) :
    k1_pay2 (F := Ideal) v0 v3 v6 v9 v12 (ix2 p q) = v6 (ix2 p q) * Ideal.tanh (k1_pay1 (F := Ideal) v0 v3 v9 v12 (ix2 p q)) := by
  unfold k1_pay2
  rw [shapeCast_self v6]
  rfl

end Cert.KernelIdeal.PayloadAt

end
-- ==== Proof.GateArray.lean ====
/-
  From blocks to the whole array: what the first call leaves in its [8192, 8192] output, one entry at a time.

  The output's column c splits as c = 2048 * g + j into a gate g < 4 and a hidden unit j < 2048. The grid point
  t = 64 * g + b computes the [128, 2048] tile of rows 128 * b .. 128 * b + 127 and columns 2048 * g .. 2048 * g + 2047:
  it reads rows 128 * b .. of x and of h, slab g of the two stacked weight arrays and row g of the stacked biases. So
  entry (r, 2048 * g + j) of the output is
      act_g ((sum_k x[r,k] * Wx[g,j,k] + sum_k h[r,k] * Wh[g,j,k]) + b[g,0,j]),
  act_g = tanh for g = 3 and the logistic function for g < 3. The tiles cover the array, so this holds at every entry.
-/
import proofs.«175041_j10453950399020_2_alg».proof.Proof.GateCall
import proofs.«175041_j10453950399020_2_alg».proof.Proof.PayloadAt
import Idealize.ShloMosaic.Lib.Pipeline.Value

set_option maxRecDepth 16384

noncomputable section

namespace Cert.KernelIdeal.TwoCalls

open Cert.KernelIdeal Cert.KernelIdeal.Gen Cert.KernelIdeal.Facts₀ Cert.KernelIdeal.Facts
open Idealize.ShloMosaic Idealize.ShloMosaic.TcCoe
open Idealize.SL Idealize.SL.Sem
open Idealize.ShloMosaic.Pipeline (Dat Cfg Window)

section Array

open Idealize.ShloMosaic.ValueIdx Cert.KernelIdeal.PayloadAt

variable (V : (c : Dev nD) → (b : Ref sig .tc) → Buf (Elt Ideal) ((c : Thread nD τ).loc b))

/-! ## One tile -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The pre-activation a grid point forms at (p, q) of its tile, from its five input blocks. -/
def tilePre (x0 x1 : Vec Ideal S128x2048 .bf16) (x2 x3 : Vec Ideal S1x2048x2048 .bf16) (x4 : Vec Ideal S1x1x2048 .f32)
    (p : Fin 128) (q : Fin 2048) : EReal :=
  ((∑ k : Fin 2048, x0 (ix2 p k) * x2 (ix3 0 q k)) + ∑ k : Fin 2048, x1 (ix2 p k) * x3 (ix3 0 q k)) + x4 (ix3 0 0 q)

/-- The candidate gate's output tile at (p, q). -/
theorem gateTanh_at (x0 x1 : Vec Ideal S128x2048 .bf16) (x2 x3 : Vec Ideal S1x2048x2048 .bf16) (x4 : Vec Ideal S1x1x2048 .f32)
    (p : Fin 128) (q : Fin 2048) :
    gateTanh (F := Ideal) x0 x1 x2 x3 x4 (ix2 p q) = Ideal.tanh (tilePre x0 x1 x2 x3 x4 p q) := by
  unfold gateTanh
  rw [View.canon_unit_zero zeros2]
  simp only [View.ld_unit_zero (S := S128x2048) zeros2, View.ld_unit_zero (S := S1x2048x2048) zeros3,
    View.ld_unit_zero (S := S1x1x2048) zeros3]
  rw [k0_pay2_at, k0_pay1_at]
  rfl

/-- A logistic gate's output tile at (p, q). -/
theorem gateSigm_at (x0 x1 : Vec Ideal S128x2048 .bf16) (x2 x3 : Vec Ideal S1x2048x2048 .bf16) (x4 : Vec Ideal S1x1x2048 .f32)
    (p : Fin 128) (q : Fin 2048) :
    gateSigm (F := Ideal) x0 x1 x2 x3 x4 (ix2 p q) = Ideal.logistic (tilePre x0 x1 x2 x3 x4 p q) := by
  unfold gateSigm
  rw [View.canon_unit_zero zeros2]
  simp only [View.ld_unit_zero (S := S128x2048) zeros2, View.ld_unit_zero (S := S1x2048x2048) zeros3,
    View.ld_unit_zero (S := S1x1x2048) zeros3]
  rw [k0_pay3_at, k0_pay1_at]
  rfl

/-! ## The grid: which blocks a point reads and writes, and which case it is -/

/-- Point t = 64 g + b reads batch tile b of x and of h, slab g of the weights and biases, and writes tile (b, g). -/
theorem block_index : ∀ t : Fin cfg0.N,
    win0_0.index t (0 : Fin 2) = t.val % 64 ∧ win0_0.index t (1 : Fin 2) = 0
    ∧ win0_1.index t (0 : Fin 2) = t.val % 64 ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0
    ∧ win0_5.index t (0 : Fin 2) = t.val % 64 ∧ win0_5.index t (1 : Fin 2) = t.val / 64 :=
  (by decide +kernel : ∀ t : Fin grid0.N,
    win0_0.index t (0 : Fin 2) = t.val % 64 ∧ win0_0.index t (1 : Fin 2) = 0
    ∧ win0_1.index t (0 : Fin 2) = t.val % 64 ∧ win0_1.index t (1 : Fin 2) = 0
    ∧ win0_2.index t (0 : Fin 3) = t.val / 64 ∧ win0_2.index t (1 : Fin 3) = 0 ∧ win0_2.index t (2 : Fin 3) = 0
    ∧ win0_3.index t (0 : Fin 3) = t.val / 64 ∧ win0_3.index t (1 : Fin 3) = 0 ∧ win0_3.index t (2 : Fin 3) = 0
    ∧ win0_4.index t (0 : Fin 3) = t.val / 64 ∧ win0_4.index t (1 : Fin 3) = 0 ∧ win0_4.index t (2 : Fin 3) = 0
    ∧ win0_5.index t (0 : Fin 2) = t.val % 64 ∧ win0_5.index t (1 : Fin 2) = t.val / 64)

/-- The candidate's case is gate 3: the last 64 points. -/
theorem cond1_iff : ∀ t : Fin cfg0.N, k0_cond1 (grid0.coords t) = 1#1 ↔ t.val / 64 = 3 :=
  (by decide +kernel : ∀ t : Fin grid0.N, k0_cond1 (grid0.coords t) = 1#1 ↔ t.val / 64 = 3)

theorem N0 : cfg0.N = 256 := N_0

/-! ## The arrays as the call finds them -/

/-- x, a [8192, 2048] array. -/
abbrev xIn (c : Dev nD) : S8192x2048.Idx → EReal := V c main_v18
/-- h, a [8192, 2048] array. -/
abbrev hIn (c : Dev nD) : S8192x2048.Idx → EReal := V c main_v19
/-- The four gates' x-side weight matrices, stacked: [4, 2048, 2048], each stored [out, in]. -/
abbrev wxIn (c : Dev nD) : S4x2048x2048.Idx → EReal := V c main_v5
/-- The four gates' h-side weight matrices, stacked. -/
abbrev whIn (c : Dev nD) : S4x2048x2048.Idx → EReal := V c main_v11
/-- The four gates' biases, stacked: [4, 1, 2048]. -/
abbrev bIn (c : Dev nD) : S4x1x2048.Idx → EReal := V c main_v17

/-! ## The input blocks as parts of the arrays -/

/-- Batch tile b of x: rows 128 b .. 128 b + 127. -/
theorem iblk0_0_at (c : Dev nD) (t : Fin cfg0.N) (p : Fin 128) (k : Fin 2048) (r : Fin 8192)
    (hr : r.val = t.val % 64 * 128 + p.val) :
    (iblk0 V c 0 t : S128x2048.Idx → EReal) (ix2 p k) = xIn V c (ix2 r k) := by
  obtain ⟨e0, e1, -⟩ := block_index t
  unfold iblk0
  rw [View.read_apply]
  show xIn V c _ = xIn V c _
  congr 1
  funext a
  apply Fin.ext
  match a with
  | ⟨0, _⟩ => show win0_0.index t (0 : Fin 2) * 128 + 1 * p.val = r.val; rw [e0, hr]; omega
  | ⟨1, _⟩ => show win0_0.index t (1 : Fin 2) * 2048 + 1 * k.val = k.val; rw [e1]; omega

/-- Batch tile b of h. -/
theorem iblk0_1_at (c : Dev nD) (t : Fin cfg0.N) (p : Fin 128) (k : Fin 2048) (r : Fin 8192)
    (hr : r.val = t.val % 64 * 128 + p.val) :
    (iblk0 V c 1 t : S128x2048.Idx → EReal) (ix2 p k) = hIn V c (ix2 r k) := by
  obtain ⟨-, -, e0, e1, -⟩ := block_index t
  unfold iblk0
  rw [View.read_apply]
  show hIn V c _ = hIn V c _
  congr 1
  funext a
  apply Fin.ext
  match a with
  | ⟨0, _⟩ => show win0_1.index t (0 : Fin 2) * 128 + 1 * p.val = r.val; rw [e0, hr]; omega
  | ⟨1, _⟩ => show win0_1.index t (1 : Fin 2) * 2048 + 1 * k.val = k.val; rw [e1]; omega

/-- Slab g of the x-side weights. -/
theorem iblk0_2_at (c : Dev nD) (t : Fin cfg0.N) (q k : Fin 2048) (g : Fin 4) (hg : g.val = t.val / 64) :
    (iblk0 V c 2 t : S1x2048x2048.Idx → EReal) (ix3 0 q k) = wxIn V c (ix3 g q k) := by
  obtain ⟨-, -, -, -, e0, e1, e2, -⟩ := block_index t
  unfold iblk0
  rw [View.read_apply]
  show wxIn V c _ = wxIn V c _
  congr 1
  funext a
  apply Fin.ext
  match a with
  | ⟨0, _⟩ => show win0_2.index t (0 : Fin 3) * 1 + 1 * 0 = g.val; rw [e0, hg]; omega
  | ⟨1, _⟩ => show win0_2.index t (1 : Fin 3) * 2048 + 1 * q.val = q.val; rw [e1]; omega
  | ⟨2, _⟩ => show win0_2.index t (2 : Fin 3) * 2048 + 1 * k.val = k.val; rw [e2]; omega

/-- Slab g of the h-side weights. -/
theorem iblk0_3_at (c : Dev nD) (t : Fin cfg0.N) (q k : Fin 2048) (g : Fin 4) (hg : g.val = t.val / 64) :
    (iblk0 V c 3 t : S1x2048x2048.Idx → EReal) (ix3 0 q k) = whIn V c (ix3 g q k) := by
  obtain ⟨-, -, -, -, -, -, -, e0, e1, e2, -⟩ := block_index t
  unfold iblk0
  rw [View.read_apply]
  show whIn V c _ = whIn V c _
  congr 1
  funext a
  apply Fin.ext
  match a with
  | ⟨0, _⟩ => show win0_3.index t (0 : Fin 3) * 1 + 1 * 0 = g.val; rw [e0, hg]; omega
  | ⟨1, _⟩ => show win0_3.index t (1 : Fin 3) * 2048 + 1 * q.val = q.val; rw [e1]; omega
  | ⟨2, _⟩ => show win0_3.index t (2 : Fin 3) * 2048 + 1 * k.val = k.val; rw [e2]; omega

/-- Row g of the biases. -/
theorem iblk0_4_at (c : Dev nD) (t : Fin cfg0.N) (q : Fin 2048) (g : Fin 4) (hg : g.val = t.val / 64) :
    (iblk0 V c 4 t : S1x1x2048.Idx → EReal) (ix3 0 0 q) = bIn V c (ix3 g 0 q) := by
  obtain ⟨-, -, -, -, -, -, -, -, -, -, e0, e1, e2, -⟩ := block_index t
  unfold iblk0
  rw [View.read_apply]
  show bIn V c _ = bIn V c _
  congr 1
  funext a
  apply Fin.ext
  match a with
  | ⟨0, _⟩ => show win0_4.index t (0 : Fin 3) * 1 + 1 * 0 = g.val; rw [e0, hg]; omega
  | ⟨1, _⟩ => show win0_4.index t (1 : Fin 3) * 1 + 1 * 0 = 0; rw [e1]
  | ⟨2, _⟩ => show win0_4.index t (2 : Fin 3) * 2048 + 1 * q.val = q.val; rw [e2]; omega

/-! ## The output array as one function of the entry contents -/

/-- Gate g's pre-activation at batch row r and hidden unit j, from the arrays as the call finds them. -/
def preEntry (c : Dev nD) (r : Fin 8192) (g : Fin 4) (j : Fin 2048) : EReal :=
  ((∑ k : Fin 2048, xIn V c (ix2 r k) * wxIn V c (ix3 g j k))
    + ∑ k : Fin 2048, hIn V c (ix2 r k) * whIn V c (ix3 g j k))
    + bIn V c (ix3 g 0 j)

/-- The gate's value there: tanh for the candidate (g = 3), the logistic function for the three others. -/
def gateEntry (c : Dev nD) (r : Fin 8192) (g : Fin 4) (j : Fin 2048) : EReal :=
  (if g = 3 then Ideal.tanh else Ideal.logistic) (preEntry V c r g j)

theorem gateEntry_congr (c : Dev nD) {r r' : Fin 8192} {g g' : Fin 4} {j j' : Fin 2048}
    (hr : r.val = r'.val) (hg : g.val = g'.val) (hj : j.val = j'.val) : gateEntry V c r g j = gateEntry V c r' g' j' := by
  obtain rfl := Fin.ext hr; obtain rfl := Fin.ext hg; obtain rfl := Fin.ext hj; rfl

/-- The whole [8192, 8192] array: column c is gate c / 2048, hidden unit c % 2048. -/
def gateG (c : Dev nD) : S8192x8192.Idx → EReal := fun i =>
  gateEntry V c ⟨(i 0).val, idx2_lt0 i⟩ ⟨(i 1).val / 2048, by have := idx2_lt1 i; omega⟩
    ⟨(i 1).val % 2048, Nat.mod_lt _ (by decide)⟩

/-- A point's tile pre-activation is the arrays' at the tile's rows, gate and units. -/
theorem tilePre_blocks (c : Dev nD) (t : Fin cfg0.N) (p : Fin 128) (q : Fin 2048) (r : Fin 8192) (g : Fin 4)
    (hr : r.val = t.val % 64 * 128 + p.val) (hg : g.val = t.val / 64) :
    tilePre (iblk0 V c 0 t) (iblk0 V c 1 t) (iblk0 V c 2 t) (iblk0 V c 3 t) (iblk0 V c 4 t) p q = preEntry V c r g q := by
  unfold tilePre preEntry
  refine congrArg₂ (· + ·) (congrArg₂ (· + ·) (Finset.sum_congr rfl fun k _ => ?_) (Finset.sum_congr rfl fun k _ => ?_)) ?_
  · exact congrArg₂ (fun a b : EReal => a * b) (iblk0_0_at V c t p k r hr) (iblk0_2_at V c t q k g hg)
  · exact congrArg₂ (fun a b : EReal => a * b) (iblk0_1_at V c t p k r hr) (iblk0_3_at V c t q k g hg)
  · exact iblk0_4_at V c t q g hg

/-- WHAT POINT t WRITES BACK is tile t of the array function. -/
theorem flushed5_eq (c : Dev nD) (t : Fin cfg0.N) :
    (dat0 V c).flushed 5 t = ((cfg0.win 5).blk t).view.read (Elt Ideal) (gateG V c) := by
  show (cfg0.win 5).cut (grid0.coords t) ((dat0 V c).after 5 t) = _
  rw [after0_5]
  show (gateOut (grid0.coords t) (iblk0 V c 0 t) (iblk0 V c 1 t) (iblk0 V c 2 t) (iblk0 V c 3 t) (iblk0 V c 4 t) : S128x2048.Idx → EReal)
    = fun y : S128x2048.Idx => gateG V c (((cfg0.win 5).blk t).view.emb y)
  funext y
  obtain ⟨p, q, rfl⟩ : ∃ (p : Fin 128) (q : Fin 2048), y = ix2 p q := ⟨y 0, y 1, eq_ix2 y⟩
  have ht : t.val < 256 := by have := t.isLt; have := N0; omega
  obtain ⟨-, -, -, -, -, -, -, -, -, -, -, -, -, e0, e1⟩ := block_index t
  have hG : gateG V c (((cfg0.win 5).blk t).view.emb (ix2 p q))
      = gateEntry V c ⟨t.val % 64 * 128 + p.val, by omega⟩ ⟨t.val / 64, by omega⟩ q := by
    unfold gateG
    refine gateEntry_congr V c ?_ ?_ ?_
    · show win0_5.index t (0 : Fin 2) * 128 + 1 * p.val = t.val % 64 * 128 + p.val
      rw [e0]; omega
    · show (win0_5.index t (1 : Fin 2) * 2048 + 1 * q.val) / 2048 = t.val / 64
      rw [e1]; omega
    · show (win0_5.index t (1 : Fin 2) * 2048 + 1 * q.val) % 2048 = q.val
      rw [e1]; omega
  rw [hG]
  unfold gateEntry
  by_cases h : k0_cond1 (grid0.coords t) = 1#1
  · have h3 : (⟨t.val / 64, by omega⟩ : Fin 4) = 3 := Fin.ext ((cond1_iff t).mp h)
    rw [gateOut_tanh h, gateTanh_at, if_pos h3]
    exact congrArg Ideal.tanh (tilePre_blocks V c t p q _ _ rfl rfl)
  · have h3 : ¬ (⟨t.val / 64, by omega⟩ : Fin 4) = 3 := fun e => h ((cond1_iff t).mpr (congrArg Fin.val e))
    rw [gateOut_sigm h, gateSigm_at, if_neg h3]
    exact congrArg Ideal.logistic (tilePre_blocks V c t p q _ _ rfl rfl)

/-- The tiles cover the array: entry (r, c) is in the tile of point 64 (c / 2048) + r / 128. -/
theorem cover5 (c : Dev nD) (i : S8192x8192.Idx) :
    ∃ t : Fin cfg0.N, (cfg0.win 5).flush t = true ∧ i ∈ ((cfg0.win 5).blk t).view.set := by
  have h0 := idx2_lt0 i
  have h1 := idx2_lt1 i
  have hN := N0
  refine ⟨⟨64 * ((i 1).val / 2048) + (i 0).val / 128, by omega⟩, flush0_5 _, ?_⟩
  generalize ht : (⟨64 * ((i 1).val / 2048) + (i 0).val / 128, by omega⟩ : Fin cfg0.N) = t
  have htv : t.val = 64 * ((i 1).val / 2048) + (i 0).val / 128 := by rw [← ht]
  obtain ⟨-, -, -, -, -, -, -, -, -, -, -, -, -, e0, e1⟩ := block_index t
  show i ∈ ((View.whole main_v20).slice (win0_5.rect t)).set
  rw [View.set_slice_whole, Rect.mem_set_unit]
  intro a
  match a with
  | ⟨0, _⟩ =>
    show win0_5.index t (0 : Fin 2) * 128 ≤ (i 0).val ∧ (i 0).val < win0_5.index t (0 : Fin 2) * 128 + 128
    rw [e0, htv]; omega
  | ⟨1, _⟩ =>
    show win0_5.index t (1 : Fin 2) * 2048 ≤ (i 1).val ∧ (i 1).val < win0_5.index t (1 : Fin 2) * 2048 + 2048
    rw [e1, htv]; omega

/-- THE ARRAY the first call leaves in its output. -/
theorem gate_array_eq (c : Dev nD) : (dat0 V c).arrAt 5 cfg0.N = gateG V c :=
  (dat0 V c).arrAt_eq_of_cover 5 (gateG V c) (fun t _ => flushed5_eq V c t) (cover5 c)

/-- Entry (r, 2048 g + j) of it: gate g of the cell at batch row r and hidden unit j. -/
theorem gate_array (c : Dev nD) (r : Fin 8192) (g : Fin 4) (j : Fin 2048) :
    ((dat0 (F := Ideal) V c).arrAt 5 cfg0.N : S8192x8192.Idx → EReal) (ix2 r ⟨2048 * g.val + j.val, by omega⟩)
      = (if g = 3 then Ideal.tanh else Ideal.logistic)
          (((∑ k : Fin 2048, xIn V c (ix2 r k) * wxIn V c (ix3 g j k))
            + ∑ k : Fin 2048, hIn V c (ix2 r k) * whIn V c (ix3 g j k))
            + bIn V c (ix3 g 0 j)) := by
  rw [gate_array_eq]
  show gateEntry V c _ _ _ = gateEntry V c r g j
  exact gateEntry_congr V c rfl (by show (2048 * g.val + j.val) / 2048 = g.val; omega)
    (by show (2048 * g.val + j.val) % 2048 = j.val; omega)

end Array

end Cert.KernelIdeal.TwoCalls

end
-- ==== Proof.CombineArray.lean ====
/-
  From blocks to the whole array, for the second call (the combine kernel), on the extended reals.

  The grid has 32 points; point t works on batch rows 256 t .. 256 t + 255. There it reads the [256, 8192] block of
  the four gates laid side by side (forget, input, output, candidate at column offsets 0, 2048, 4096, 6144) and
  the [256, 2048] block of the cell state, and writes back one tile of each result:
      c_new[r, j] = gates[r, j] * c[r, j] + gates[r, 2048 + j] * gates[r, 6144 + j],
      h_new[r, j] = gates[r, 4096 + j] * tanh (c_new[r, j]).
  Row r of a result is written by point r / 256 and by no other, and every tile is the restriction of one function
  of the two arrays the call is entered from; so each result array, after the call, IS that function.
-/
import proofs.«175041_j10453950399020_2_alg».proof.Proof.CombineCall
import proofs.«175041_j10453950399020_2_alg».proof.Proof.PayloadAt
import Idealize.ShloMosaic.Lib.Pipeline.Value
import Idealize.ShloMosaic.Lib.ValueIdx

noncomputable section

namespace Cert.KernelIdeal.TwoCalls

open Cert.KernelIdeal Cert.KernelIdeal.Gen Idealize.ShloMosaic Idealize.ShloMosaic.TcCoe Idealize.ShloMosaic.ValueIdx
open Idealize.ShloMosaic.Pipeline (Dat)
open Cert.KernelIdeal.PayloadAt

/-! ## The two results as functions of the gate array and the cell-state array -/

/-- The new cell state at batch row r, hidden unit j. -/
def cellAt (g : S8192x8192.Idx → EReal) (cs : S8192x2048.Idx → EReal) (r : Fin 8192) (j : Fin 2048) : EReal :=
  g (ix2 r ⟨j.val, by omega⟩) * cs (ix2 r j)
    + g (ix2 r ⟨2048 + j.val, by omega⟩) * g (ix2 r ⟨6144 + j.val, by omega⟩)

/-- The new hidden state at batch row r, hidden unit j. -/
def hiddenAt (g : S8192x8192.Idx → EReal) (cs : S8192x2048.Idx → EReal) (r : Fin 8192) (j : Fin 2048) : EReal :=
  g (ix2 r ⟨4096 + j.val, by omega⟩) * Ideal.tanh (cellAt g cs r j)

/-- The whole new cell-state array. -/
abbrev cellArr (g : S8192x8192.Idx → EReal) (cs : S8192x2048.Idx → EReal) : S8192x2048.Idx → EReal :=
  fun i => cellAt g cs (i 0) (i 1)

/-- The whole new hidden-state array. -/
abbrev hiddenArr (g : S8192x8192.Idx → EReal) (cs : S8192x2048.Idx → EReal) : S8192x2048.Idx → EReal :=
  fun i => hiddenAt g cs (i 0) (i 1)

theorem zeroOffsets : (![0, 0] : Fin 2 → Nat) = fun _ => 0 := funext fun a => by fin_cases a <;> rfl

/-! ## One tile, entry by entry -/

/-- A load of 2048 columns of the gate block starting at column o reads, at (p, q), the block at (p, o + q):
    the rectangle has unit strides, so its coordinate is offset + 1 * coordinate. -/
theorem ld_cols (x0 : Vec Ideal S256x8192 .bf16) (o : Nat) (ho : o + 2048 ≤ 8192)
    (inb : ∀ a, (![0, o] : Fin 2 → Nat) a + S256x2048.size a ≤ S256x8192.size a) (p : Fin 256) (q : Fin 2048) :
    View.ld x0 (Rect.unit (s := S256x8192) ![0, o] S256x2048.size inb) (ix2 p q) = x0 (ix2 p ⟨o + q.val, by omega⟩) := by
  show x0 _ = x0 _
  congr 1
  funext a
  apply Fin.ext
  match a with
  | ⟨0, _⟩ => show 0 + 1 * p.val = p.val; omega
  | ⟨1, _⟩ => show o + 1 * q.val = o + q.val; omega

/-- The new cell state's tile at (p, q), in terms of the gate block and the cell block. -/
theorem cellOut_at (x0 : Vec Ideal S256x8192 .bf16) (x1 : Vec Ideal S256x2048 .f32) (p : Fin 256) (q : Fin 2048) :
    cellOut (F := Ideal) x0 x1 (ix2 p q)
      = x0 (ix2 p ⟨q.val, by omega⟩) * x1 (ix2 p q)
        + x0 (ix2 p ⟨2048 + q.val, by omega⟩) * x0 (ix2 p ⟨6144 + q.val, by omega⟩) := by
  unfold cellOut
  rw [View.canon_unit_zero zeroOffsets]
  refine (k1_pay1_at _ _ _ _ p q).trans ?_
  refine congrArg₂ (· + ·) (congrArg₂ (· * ·) ?_ ?_) (congrArg₂ (· * ·) ?_ ?_)
  · exact (ld_cols x0 0 (by omega) _ p q).trans (congrArg x0 (congrArg (ix2 p) (Fin.ext (Nat.zero_add _))))
  · exact congrFun (View.ld_unit_zero (S := S256x2048) zeroOffsets _ x1) (ix2 p q)
  · exact ld_cols x0 2048 (by omega) _ p q
  · exact ld_cols x0 6144 (by omega) _ p q

/-- The new hidden state's tile at (p, q). -/
theorem hiddenOut_at (x0 : Vec Ideal S256x8192 .bf16) (x1 : Vec Ideal S256x2048 .f32) (p : Fin 256) (q : Fin 2048) :
    hiddenOut (F := Ideal) x0 x1 (ix2 p q)
      = x0 (ix2 p ⟨4096 + q.val, by omega⟩) * Ideal.tanh (cellOut (F := Ideal) x0 x1 (ix2 p q)) := by
  unfold hiddenOut cellOut
  rw [View.canon_unit_zero zeroOffsets, View.canon_unit_zero zeroOffsets]
  refine (k1_pay2_at _ _ _ _ _ p q).trans ?_
  exact congrArg (· * _) (ld_cols x0 4096 (by omega) _ p q)

/-! ## The blocks of the two input arrays -/

variable (V : (c : Dev nD) → (b : Ref sig .tc) → Buf (Elt Ideal) ((c : Thread nD τ).loc b))

/-- The printed index maps over the grid: every window's block at point t is block (t, 0). -/
theorem blockIndex : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0) :=
  (by decide +kernel : ∀ t : Fin grid1.N, _)

theorem point_lt (t : Fin cfg1.N) : t.val < 32 :=
  Nat.lt_of_lt_of_eq t.isLt (show cfg1.N = 32 from N_1)

/-- The gate block at point t is rows 256 t .. 256 t + 255 of the gate array, all columns. -/
theorem gateBlock_at (c : Dev nD) (t : Fin cfg1.N) (p : Fin 256) (q : Fin 8192) (r : Fin 8192) (hr : r.val = 256 * t.val + p.val) :
    (iblk1 V c 0 t : Vec Ideal S256x8192 .bf16) (ix2 p q) = (V c main_v20 : S8192x8192.Idx → EReal) (ix2 r q) := by
  obtain ⟨⟨e0, e1⟩, -⟩ := blockIndex t
  unfold iblk1
  rw [View.read_apply]
  show (V c main_v20 : S8192x8192.Idx → EReal) _ = (V c main_v20 : S8192x8192.Idx → EReal) _
  congr 1
  funext a
  apply Fin.ext
  match a with
  | ⟨0, _⟩ => show win1_0.index t (0 : Fin 2) * 256 + 1 * p.val = r.val; rw [e0, hr]; omega
  | ⟨1, _⟩ => show win1_0.index t (1 : Fin 2) * 8192 + 1 * q.val = q.val; rw [e1]; omega

/-- The cell-state block at point t is rows 256 t .. 256 t + 255 of the cell-state array. -/
theorem cellBlock_at (c : Dev nD) (t : Fin cfg1.N) (p : Fin 256) (q : Fin 2048) (r : Fin 8192) (hr : r.val = 256 * t.val + p.val) :
    (iblk1 V c 1 t : Vec Ideal S256x2048 .f32) (ix2 p q) = (V c main_arg2 : S8192x2048.Idx → EReal) (ix2 r q) := by
  obtain ⟨-, ⟨e0, e1⟩, -⟩ := blockIndex t
  unfold iblk1
  rw [View.read_apply]
  show (V c main_arg2 : S8192x2048.Idx → EReal) _ = (V c main_arg2 : S8192x2048.Idx → EReal) _
  congr 1
  funext a
  apply Fin.ext
  match a with
  | ⟨0, _⟩ => show win1_1.index t (0 : Fin 2) * 256 + 1 * p.val = r.val; rw [e0, hr]; omega
  | ⟨1, _⟩ => show win1_1.index t (1 : Fin 2) * 2048 + 1 * q.val = q.val; rw [e1]; omega

/-! ## What a point writes back is its tile of the whole-array function -/

/-- The new cell state's tile at point t, at (p, q), is the array function at row 256 t + p, column q. -/
theorem cellTile_at (c : Dev nD) (t : Fin cfg1.N) (p : Fin 256) (q : Fin 2048) (r : Fin 8192) (j : Fin 2048)
    (hr : r.val = 256 * t.val + p.val) (hj : j.val = q.val) :
    cellOut (F := Ideal) (iblk1 V c 0 t) (iblk1 V c 1 t) (ix2 p q) = cellAt (V c main_v20) (V c main_arg2) r j := by
  obtain rfl : j = q := Fin.ext hj
  refine (cellOut_at _ _ p j).trans ?_
  unfold cellAt
  refine congrArg₂ (· + ·) (congrArg₂ (· * ·) ?_ ?_) (congrArg₂ (· * ·) ?_ ?_)
  · exact gateBlock_at V c t p _ r hr
  · exact cellBlock_at V c t p j r hr
  · exact gateBlock_at V c t p _ r hr
  · exact gateBlock_at V c t p _ r hr

/-- The new hidden state's tile likewise. -/
theorem hiddenTile_at (c : Dev nD) (t : Fin cfg1.N) (p : Fin 256) (q : Fin 2048) (r : Fin 8192) (j : Fin 2048)
    (hr : r.val = 256 * t.val + p.val) (hj : j.val = q.val) :
    hiddenOut (F := Ideal) (iblk1 V c 0 t) (iblk1 V c 1 t) (ix2 p q) = hiddenAt (V c main_v20) (V c main_arg2) r j := by
  refine (hiddenOut_at _ _ p q).trans ?_
  unfold hiddenAt
  refine congrArg₂ (· * ·) ?_ (congrArg Ideal.tanh (cellTile_at V c t p q r j hr hj))
  obtain rfl : j = q := Fin.ext hj
  exact gateBlock_at V c t p _ r hr

/-- WHAT POINT t WRITES BACK into the new cell-state array is block t of the whole-array function. -/
theorem cell_flushed (c : Dev nD) (t : Fin cfg1.N) :
    (dat1 (F := Ideal) V c).flushed 3 t
      = ((cfg1.win 3).blk t).view.read (Elt Ideal) (cellArr (V c main_v20) (V c main_arg2)) := by
  obtain ⟨-, -, -, ⟨e0, e1⟩⟩ := blockIndex t
  show (cfg1.win 3).cut (grid1.coords t) ((dat1 V c).after 3 t) = _
  rw [after1_3]
  funext y
  rw [View.read_apply]
  show cellOut (F := Ideal) (iblk1 V c 0 t) (iblk1 V c 1 t) y
    = cellAt (V c main_v20) (V c main_arg2) ((((cfg1.win 3).blk t).view.emb y) 0) ((((cfg1.win 3).blk t).view.emb y) 1)
  refine (congrArg (cellOut (F := Ideal) (iblk1 V c 0 t) (iblk1 V c 1 t)) (@eq_ix2 256 2048 y)).trans ?_
  refine cellTile_at V c t (y 0) (y 1) _ _ ?_ ?_
  · show win1_3.index t (0 : Fin 2) * 256 + 1 * (y 0).val = 256 * t.val + (y 0).val; rw [e0]; omega
  · show win1_3.index t (1 : Fin 2) * 2048 + 1 * (y 1).val = (y 1).val; rw [e1]; omega

/-- WHAT POINT t WRITES BACK into the new hidden-state array is block t of the whole-array function. -/
theorem hidden_flushed (c : Dev nD) (t : Fin cfg1.N) :
    (dat1 (F := Ideal) V c).flushed 2 t
      = ((cfg1.win 2).blk t).view.read (Elt Ideal) (hiddenArr (V c main_v20) (V c main_arg2)) := by
  obtain ⟨-, -, ⟨e0, e1⟩, -⟩ := blockIndex t
  show (cfg1.win 2).cut (grid1.coords t) ((dat1 V c).after 2 t) = _
  rw [after1_2]
  funext y
  rw [View.read_apply]
  show hiddenOut (F := Ideal) (iblk1 V c 0 t) (iblk1 V c 1 t) y
    = hiddenAt (V c main_v20) (V c main_arg2) ((((cfg1.win 2).blk t).view.emb y) 0) ((((cfg1.win 2).blk t).view.emb y) 1)
  refine (congrArg (hiddenOut (F := Ideal) (iblk1 V c 0 t) (iblk1 V c 1 t)) (@eq_ix2 256 2048 y)).trans ?_
  refine hiddenTile_at V c t (y 0) (y 1) _ _ ?_ ?_
  · show win1_2.index t (0 : Fin 2) * 256 + 1 * (y 0).val = 256 * t.val + (y 0).val; rw [e0]; omega
  · show win1_2.index t (1 : Fin 2) * 2048 + 1 * (y 1).val = (y 1).val; rw [e1]; omega

/-! ## The tiles cover the arrays -/

/-- An index of the new cell-state array is in point t's block iff each coordinate is in the block's range. -/
theorem mem_cellBlock (t : Fin cfg1.N) (i : S8192x2048.Idx) :
    i ∈ ((cfg1.win 3).blk t).view.set
      ↔ ∀ a : Fin 2, win1_3.index t a * S256x2048.size a ≤ (i a).val
          ∧ (i a).val < win1_3.index t a * S256x2048.size a + S256x2048.size a := by
  show i ∈ ((View.whole main_v21_1).slice (win1_3.rect t)).set ↔ _
  rw [View.set_slice_whole, Rect.mem_set_unit]
  exact Iff.rfl

/-- The same for the new hidden-state array. -/
theorem mem_hiddenBlock (t : Fin cfg1.N) (i : S8192x2048.Idx) :
    i ∈ ((cfg1.win 2).blk t).view.set
      ↔ ∀ a : Fin 2, win1_2.index t a * S256x2048.size a ≤ (i a).val
          ∧ (i a).val < win1_2.index t a * S256x2048.size a + S256x2048.size a := by
  show i ∈ ((View.whole main_v21_0).slice (win1_2.rect t)).set ↔ _
  rw [View.set_slice_whole, Rect.mem_set_unit]
  exact Iff.rfl

/-- Row r of the new cell-state array lies in the block of point r / 256. -/
theorem cell_cover (i : S8192x2048.Idx) :
    ∃ t : Fin cfg1.N, (cfg1.win 3).flush t = true ∧ i ∈ ((cfg1.win 3).blk t).view.set := by
  have hi0 : (i 0).val < 8192 := idx2_lt0 i
  have hi1 : (i 1).val < 2048 := idx2_lt1 i
  have hT : (i 0).val / 256 < cfg1.N := by rw [show cfg1.N = 32 from N_1]; omega
  obtain ⟨-, -, -, ⟨e0, e1⟩⟩ := blockIndex ⟨(i 0).val / 256, hT⟩
  have e0' : win1_3.index ⟨(i 0).val / 256, hT⟩ (0 : Fin 2) = (i 0).val / 256 := e0
  refine ⟨⟨(i 0).val / 256, hT⟩, flush1_3 _, ?_⟩
  rw [mem_cellBlock]
  intro a
  match a with
  | ⟨0, _⟩ =>
    show win1_3.index ⟨(i 0).val / 256, hT⟩ (0 : Fin 2) * 256 ≤ (i 0).val
      ∧ (i 0).val < win1_3.index ⟨(i 0).val / 256, hT⟩ (0 : Fin 2) * 256 + 256
    rw [e0']; omega
  | ⟨1, _⟩ =>
    show win1_3.index ⟨(i 0).val / 256, hT⟩ (1 : Fin 2) * 2048 ≤ (i 1).val
      ∧ (i 1).val < win1_3.index ⟨(i 0).val / 256, hT⟩ (1 : Fin 2) * 2048 + 2048
    rw [e1]; omega

/-- Row r of the new hidden-state array lies in the block of point r / 256. -/
theorem hidden_cover (i : S8192x2048.Idx) :
    ∃ t : Fin cfg1.N, (cfg1.win 2).flush t = true ∧ i ∈ ((cfg1.win 2).blk t).view.set := by
  have hi0 : (i 0).val < 8192 := idx2_lt0 i
  have hi1 : (i 1).val < 2048 := idx2_lt1 i
  have hT : (i 0).val / 256 < cfg1.N := by rw [show cfg1.N = 32 from N_1]; omega
  obtain ⟨-, -, ⟨e0, e1⟩, -⟩ := blockIndex ⟨(i 0).val / 256, hT⟩
  have e0' : win1_2.index ⟨(i 0).val / 256, hT⟩ (0 : Fin 2) = (i 0).val / 256 := e0
  refine ⟨⟨(i 0).val / 256, hT⟩, flush1_2 _, ?_⟩
  rw [mem_hiddenBlock]
  intro a
  match a with
  | ⟨0, _⟩ =>
    show win1_2.index ⟨(i 0).val / 256, hT⟩ (0 : Fin 2) * 256 ≤ (i 0).val
      ∧ (i 0).val < win1_2.index ⟨(i 0).val / 256, hT⟩ (0 : Fin 2) * 256 + 256
    rw [e0']; omega
  | ⟨1, _⟩ =>
    show win1_2.index ⟨(i 0).val / 256, hT⟩ (1 : Fin 2) * 2048 ≤ (i 1).val
      ∧ (i 1).val < win1_2.index ⟨(i 0).val / 256, hT⟩ (1 : Fin 2) * 2048 + 2048
    rw [e1]; omega

/-! ## The two arrays after the call -/

/-- The new cell-state array after the call is the whole-array function of the arrays the call is entered from. -/
theorem cell_array (c : Dev nD) :
    (dat1 (F := Ideal) V c).arrAt 3 cfg1.N = cellArr (V c main_v20) (V c main_arg2) :=
  (dat1 (F := Ideal) V c).arrAt_eq_of_cover 3 (cellArr (V c main_v20) (V c main_arg2))
    (fun t _ => cell_flushed V c t) cell_cover

/-- The new hidden-state array after the call likewise. -/
theorem hidden_array (c : Dev nD) :
    (dat1 (F := Ideal) V c).arrAt 2 cfg1.N = hiddenArr (V c main_v20) (V c main_arg2) :=
  (dat1 (F := Ideal) V c).arrAt_eq_of_cover 2 (hiddenArr (V c main_v20) (V c main_arg2))
    (fun t _ => hidden_flushed V c t) hidden_cover

/-- The defining expression of the new cell state: c_new[r, j] = f[r, j] * c[r, j] + i[r, j] * cand[r, j], the forget,
    input and candidate gates read at column offsets 0, 2048 and 6144 of the gate array. -/
theorem cellAt_eq (g : S8192x8192.Idx → EReal) (cs : S8192x2048.Idx → EReal) (r : Fin 8192) (j : Fin 2048) :
    cellAt g cs r j
      = g (ix2 r ⟨j.val, by omega⟩) * cs (ix2 r j)
        + g (ix2 r ⟨2048 + j.val, by omega⟩) * g (ix2 r ⟨6144 + j.val, by omega⟩) := rfl

/-- The defining expression of the new hidden state: h_new[r, j] = o[r, j] * tanh (c_new[r, j]), the output gate read
    at column offset 4096. -/
theorem hiddenAt_eq (g : S8192x8192.Idx → EReal) (cs : S8192x2048.Idx → EReal) (r : Fin 8192) (j : Fin 2048) :
    hiddenAt g cs r j
      = g (ix2 r ⟨4096 + j.val, by omega⟩)
        * Ideal.tanh (g (ix2 r ⟨j.val, by omega⟩) * cs (ix2 r j)
          + g (ix2 r ⟨2048 + j.val, by omega⟩) * g (ix2 r ⟨6144 + j.val, by omega⟩)) := rfl

/-- The new cell-state array after the call, one entry at a time. -/
theorem combine_cell (c : Dev nD) (r : Fin 8192) (j : Fin 2048) :
    ((dat1 (F := Ideal) V c).arrAt 3 cfg1.N : S8192x2048.Idx → EReal) (ix2 r j)
      = cellAt (V c main_v20) (V c main_arg2) r j :=
  congrFun (cell_array V c) (ix2 r j)

/-- The new hidden-state array after the call, one entry at a time. -/
theorem combine_hidden (c : Dev nD) (r : Fin 8192) (j : Fin 2048) :
    ((dat1 (F := Ideal) V c).arrAt 2 cfg1.N : S8192x2048.Idx → EReal) (ix2 r j)
      = hiddenAt (V c main_v20) (V c main_arg2) r j :=
  congrFun (hidden_array V c) (ix2 r j)

/-- The same with the two arrays the call is entered from named: when the gate array is g and the cell-state array is
    cs, c_new[r, j] = g[r, j] * cs[r, j] + g[r, 2048 + j] * g[r, 6144 + j]. -/
theorem combine_cell_of (c : Dev nD) (g : S8192x8192.Idx → EReal) (cs : S8192x2048.Idx → EReal)
    (hg : V c main_v20 = g) (hcs : V c main_arg2 = cs) (r : Fin 8192) (j : Fin 2048) :
    ((dat1 (F := Ideal) V c).arrAt 3 cfg1.N : S8192x2048.Idx → EReal) (ix2 r j)
      = g (ix2 r ⟨j.val, by omega⟩) * cs (ix2 r j)
        + g (ix2 r ⟨2048 + j.val, by omega⟩) * g (ix2 r ⟨6144 + j.val, by omega⟩) := by
  subst hg; subst hcs
  exact combine_cell V c r j

/-- And h_new[r, j] = g[r, 4096 + j] * tanh (c_new[r, j]). -/
theorem combine_hidden_of (c : Dev nD) (g : S8192x8192.Idx → EReal) (cs : S8192x2048.Idx → EReal)
    (hg : V c main_v20 = g) (hcs : V c main_arg2 = cs) (r : Fin 8192) (j : Fin 2048) :
    ((dat1 (F := Ideal) V c).arrAt 2 cfg1.N : S8192x2048.Idx → EReal) (ix2 r j)
      = g (ix2 r ⟨4096 + j.val, by omega⟩)
        * Ideal.tanh (g (ix2 r ⟨j.val, by omega⟩) * cs (ix2 r j)
          + g (ix2 r ⟨2048 + j.val, by omega⟩) * g (ix2 r ⟨6144 + j.val, by omega⟩)) := by
  subst hg; subst hcs
  exact combine_hidden V c r j

end Cert.KernelIdeal.TwoCalls

end
-- ==== Proof.HostStage.lean ====
/-
  What the host operations that run before the first kernel leave in the buffers the kernels read, on the
  extended reals, one entry at a time.

  The four gates' input-side weight matrices, each [2048, 2048], are stacked into one [4, 2048, 2048] array:
  every matrix is given a leading axis of extent 1, the four are laid end to end along that axis, and the
  result is converted to a narrower float type, which on the extended reals changes nothing. So entry
  (g, j, k) of the stack is entry (j, k) of the g-th matrix. The hidden-side weight matrices are stacked the
  same way. The four biases, each [2048], are stacked into [4, 2048] likewise and the stack is then viewed as
  [4, 1, 2048], which keeps every entry's row-major position: entry (g, 0, j) is entry j of the g-th bias.
  The batch of inputs and the batch of hidden states are only converted, so they are unchanged, and no host
  operation writes an argument array.
-/
import proofs.«175041_j10453950399020_2_alg».proof.Proof.Gen.KernelIdeal.Regions
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.HostStage

open Cert.KernelIdeal Cert.KernelIdeal.Gen Idealize.ShloMosaic Idealize.ShloMosaic.TcCoe Idealize.ShloMosaic.ValueIdx Idealize.SL.Sem

/-- Reads one buffer off the contents left by a list of host operations: an operation's own result buffer holds its
    function of its operands' contents, every other buffer what it held before the operation. -/
local macro "host_results" : tactic =>
  `(tactic| simp (disch := decide) only [StableHlo.after_cons, StableHlo.after_nil,
      StableHlo.unary_result', StableHlo.reshape_result', StableHlo.nary4_result',
      StableHlo.unary_result_ne', StableHlo.reshape_result_ne', StableHlo.nary_result_ne'])

/-! ## A matrix given a leading unit axis, and four of them laid end to end -/

/-- A [2048, 2048] matrix broadcast to [1, 2048, 2048] along its own two axes, as a piece of a concatenation. -/
private abbrev piece3 (hb : S2048x2048.BroadcastsInDim S1x2048x2048 (![1, 2] : Fin 2 → Fin S1x2048x2048.rank))
    (w : S2048x2048.Idx → EReal) : (s : Shape) × (s.Idx → EReal) :=
  ⟨S1x2048x2048, broadcastInDim S1x2048x2048 ![1, 2] hb w⟩

/-- A [2048, 2048] matrix broadcast to [1, 2048, 2048] along its own two axes reads, at `(u, j, k)`, its entry `(j, k)`:
    neither of its axes has extent 1, so both coordinates are carried over. -/
private theorem lead3_apply (hb : S2048x2048.BroadcastsInDim S1x2048x2048 (![1, 2] : Fin 2 → Fin S1x2048x2048.rank))
    (w : S2048x2048.Idx → EReal) (u : Fin 1) (j k : Fin 2048) :
    broadcastInDim S1x2048x2048 ![1, 2] hb w (ix3 u j k) = w (ix2 j k) :=
  broadcastInDim_apply _ hb w _ _ fun a => match a with
    | ⟨0, _⟩ => (if_neg (show ¬ ((2048 : ℕ) = 1) by decide)).symm
    | ⟨1, _⟩ => (if_neg (show ¬ ((2048 : ℕ) = 1) by decide)).symm

/-- Four [2048, 2048] matrices, each with a leading unit axis, laid end to end along it: entry `(g, j, k)` of the
    [4, 2048, 2048] result is entry `(j, k)` of the `g`-th matrix. Piece `g` spans exactly coordinate `g` of the leading axis,
    the `g` pieces before it having extent 1 each. -/
private theorem stack3_apply (hb : S2048x2048.BroadcastsInDim S1x2048x2048 (![1, 2] : Fin 2 → Fin S1x2048x2048.rank))
    (hc : Shape.Concatenates [S1x2048x2048, S1x2048x2048, S1x2048x2048, S1x2048x2048] S4x2048x2048 0)
    (w0 w1 w2 w3 : S2048x2048.Idx → EReal) (g : Fin 4) (j k : Fin 2048) :
    concatenate S4x2048x2048 0 [piece3 hb w0, piece3 hb w1, piece3 hb w2, piece3 hb w3] hc (ix3 g j k)
      = (![w0, w1, w2, w3] g) (ix2 j k) := by
  have off : ∀ (g' : Fin 4) (b : Fin S1x2048x2048.rank), b.cast rfl ≠ (0 : Fin S4x2048x2048.rank) →
      ((ix3 (0 : Fin 1) j k) b).val = ((ix3 g' j k) (b.cast rfl)).val := fun g' b h => match b, h with
    | ⟨0, _⟩, h => (h rfl).elim
    | ⟨1, _⟩, _ => rfl
    | ⟨2, _⟩, _ => rfl
  match g with
  | ⟨0, _⟩ =>
    exact (concatenate_apply_piece (0 : Fin S4x2048x2048.rank) [piece3 hb w0, piece3 hb w1, piece3 hb w2, piece3 hb w3] hc _
      0 (show (0 : ℕ) < 4 by decide) S1x2048x2048 _ rfl rfl 0 rfl (ix3 (0 : Fin 1) j k) (off _) rfl).trans (lead3_apply hb w0 0 j k)
  | ⟨1, _⟩ =>
    exact (concatenate_apply_piece (0 : Fin S4x2048x2048.rank) [piece3 hb w0, piece3 hb w1, piece3 hb w2, piece3 hb w3] hc _
      1 (show (1 : ℕ) < 4 by decide) S1x2048x2048 _ rfl rfl 1 rfl (ix3 (0 : Fin 1) j k) (off _) rfl).trans (lead3_apply hb w1 0 j k)
  | ⟨2, _⟩ =>
    exact (concatenate_apply_piece (0 : Fin S4x2048x2048.rank) [piece3 hb w0, piece3 hb w1, piece3 hb w2, piece3 hb w3] hc _
      2 (show (2 : ℕ) < 4 by decide) S1x2048x2048 _ rfl rfl 2 rfl (ix3 (0 : Fin 1) j k) (off _) rfl).trans (lead3_apply hb w2 0 j k)
  | ⟨3, _⟩ =>
    exact (concatenate_apply_piece (0 : Fin S4x2048x2048.rank) [piece3 hb w0, piece3 hb w1, piece3 hb w2, piece3 hb w3] hc _
      3 (show (3 : ℕ) < 4 by decide) S1x2048x2048 _ rfl rfl 3 rfl (ix3 (0 : Fin 1) j k) (off _) rfl).trans (lead3_apply hb w3 0 j k)

/-! ## A bias given a leading unit axis, four of them laid end to end, and the stack viewed as [4, 1, 2048] -/

/-- A [2048] vector broadcast to [1, 2048] along its own axis, as a piece of a concatenation. -/
private abbrev piece2 (hb : S2048.BroadcastsInDim S1x2048 (![1] : Fin 1 → Fin S1x2048.rank))
    (b : S2048.Idx → EReal) : (s : Shape) × (s.Idx → EReal) :=
  ⟨S1x2048, broadcastInDim S1x2048 ![1] hb b⟩

/-- A [2048] vector broadcast to [1, 2048] along its own axis reads, at `(u, j)`, its entry `j`. -/
private theorem lead2_apply (hb : S2048.BroadcastsInDim S1x2048 (![1] : Fin 1 → Fin S1x2048.rank))
    (b : S2048.Idx → EReal) (u : Fin 1) (j : Fin 2048) :
    broadcastInDim S1x2048 ![1] hb b (ix2 u j) = b (ix1 j) :=
  broadcastInDim_apply _ hb b _ _ fun a => match a with
    | ⟨0, _⟩ => (if_neg (show ¬ ((2048 : ℕ) = 1) by decide)).symm

/-- Four [2048] vectors, each with a leading unit axis, laid end to end along it: entry `(g, j)` of the [4, 2048] result is
    entry `j` of the `g`-th vector. -/
private theorem stack2_apply (hb : S2048.BroadcastsInDim S1x2048 (![1] : Fin 1 → Fin S1x2048.rank))
    (hc : Shape.Concatenates [S1x2048, S1x2048, S1x2048, S1x2048] S4x2048 0)
    (b0 b1 b2 b3 : S2048.Idx → EReal) (g : Fin 4) (j : Fin 2048) :
    concatenate S4x2048 0 [piece2 hb b0, piece2 hb b1, piece2 hb b2, piece2 hb b3] hc (ix2 g j)
      = (![b0, b1, b2, b3] g) (ix1 j) := by
  have off : ∀ (g' : Fin 4) (a : Fin S1x2048.rank), a.cast rfl ≠ (0 : Fin S4x2048.rank) →
      ((ix2 (0 : Fin 1) j) a).val = ((ix2 g' j) (a.cast rfl)).val := fun g' a h => match a, h with
    | ⟨0, _⟩, h => (h rfl).elim
    | ⟨1, _⟩, _ => rfl
  match g with
  | ⟨0, _⟩ =>
    exact (concatenate_apply_piece (0 : Fin S4x2048.rank) [piece2 hb b0, piece2 hb b1, piece2 hb b2, piece2 hb b3] hc _
      0 (show (0 : ℕ) < 4 by decide) S1x2048 _ rfl rfl 0 rfl (ix2 (0 : Fin 1) j) (off _) rfl).trans (lead2_apply hb b0 0 j)
  | ⟨1, _⟩ =>
    exact (concatenate_apply_piece (0 : Fin S4x2048.rank) [piece2 hb b0, piece2 hb b1, piece2 hb b2, piece2 hb b3] hc _
      1 (show (1 : ℕ) < 4 by decide) S1x2048 _ rfl rfl 1 rfl (ix2 (0 : Fin 1) j) (off _) rfl).trans (lead2_apply hb b1 0 j)
  | ⟨2, _⟩ =>
    exact (concatenate_apply_piece (0 : Fin S4x2048.rank) [piece2 hb b0, piece2 hb b1, piece2 hb b2, piece2 hb b3] hc _
      2 (show (2 : ℕ) < 4 by decide) S1x2048 _ rfl rfl 2 rfl (ix2 (0 : Fin 1) j) (off _) rfl).trans (lead2_apply hb b2 0 j)
  | ⟨3, _⟩ =>
    exact (concatenate_apply_piece (0 : Fin S4x2048.rank) [piece2 hb b0, piece2 hb b1, piece2 hb b2, piece2 hb b3] hc _
      3 (show (3 : ℕ) < 4 by decide) S1x2048 _ rfl rfl 3 rfl (ix2 (0 : Fin 1) j) (off _) rfl).trans (lead2_apply hb b3 0 j)

/-- A [4, 2048] array viewed as [4, 1, 2048] reads, at `(g, 0, j)`, its entry `(g, j)`: both sit at row-major position
    `g * 2048 + j`. -/
private theorem view3_apply (hs : S4x2048.ShapeCasts S4x1x2048) (x : S4x2048.Idx → EReal) (g : Fin 4) (j : Fin 2048) :
    shapeCast S4x1x2048 x hs (ix3 g (0 : Fin 1) j) = x (ix2 g j) :=
  shapeCast_apply x hs _ _ (by
    rw [Shape.rowMajor_val_three, Shape.rowMajor_val_two]
    show g.val * 2048 + j.val = (g.val * 1 + 0) * 2048 + j.val
    omega)

/-! ## The buffers after the host operations -/

variable (m : (ℓ : Loc nD τ sig) → Buf (Elt Ideal) ℓ) (c : Dev nD)

/-- The stacked input-side weights: entry `(g, j, k)` is entry `(j, k)` of the `g`-th gate's input-side weight matrix. -/
theorem V1_v5 (g : Fin 4) (j k : Fin 2048) : (V1 m c main_v5 : S4x2048x2048.Idx → EReal) (ix3 g j k)
    = (![(V0 m c main_arg3 : S2048x2048.Idx → EReal), V0 m c main_arg6, V0 m c main_arg9, V0 m c main_arg12] g) (ix2 j k) := by
  have e : (V1 m c main_v5 : S4x2048x2048.Idx → EReal)
      = concatenate S4x2048x2048 0
          ([piece3 bcast_S2048x2048_S1x2048x2048_1_2 (V0 m c main_arg3), piece3 bcast_S2048x2048_S1x2048x2048_1_2 (V0 m c main_arg6),
           piece3 bcast_S2048x2048_S1x2048x2048_1_2 (V0 m c main_arg9), piece3 bcast_S2048x2048_S1x2048x2048_1_2 (V0 m c main_arg12)] : List ((s : Shape) × (s.Idx → EReal)))
          concatenates_S1x2048x2048_S1x2048x2048_S1x2048x2048_S1x2048x2048_S4x2048x2048_d0 := by
    dsimp only [V1, hostOps0]; host_results; rfl
  exact (congrFun e _).trans (stack3_apply _ _ _ _ _ _ g j k)

/-- The stacked hidden-side weights: entry `(g, j, k)` is entry `(j, k)` of the `g`-th gate's hidden-side weight matrix. -/
theorem V1_v11 (g : Fin 4) (j k : Fin 2048) : (V1 m c main_v11 : S4x2048x2048.Idx → EReal) (ix3 g j k)
    = (![(V0 m c main_arg4 : S2048x2048.Idx → EReal), V0 m c main_arg7, V0 m c main_arg10, V0 m c main_arg13] g) (ix2 j k) := by
  have e : (V1 m c main_v11 : S4x2048x2048.Idx → EReal)
      = concatenate S4x2048x2048 0
          ([piece3 bcast_S2048x2048_S1x2048x2048_1_2 (V0 m c main_arg4), piece3 bcast_S2048x2048_S1x2048x2048_1_2 (V0 m c main_arg7),
           piece3 bcast_S2048x2048_S1x2048x2048_1_2 (V0 m c main_arg10), piece3 bcast_S2048x2048_S1x2048x2048_1_2 (V0 m c main_arg13)] : List ((s : Shape) × (s.Idx → EReal)))
          concatenates_S1x2048x2048_S1x2048x2048_S1x2048x2048_S1x2048x2048_S4x2048x2048_d0 := by
    dsimp only [V1, hostOps0]; host_results; rfl
  exact (congrFun e _).trans (stack3_apply _ _ _ _ _ _ g j k)

/-- The stacked biases, viewed as [4, 1, 2048]: entry `(g, 0, j)` is entry `j` of the `g`-th gate's bias. -/
theorem V1_v17 (g : Fin 4) (j : Fin 2048) : (V1 m c main_v17 : S4x1x2048.Idx → EReal) (ix3 g 0 j)
    = (![(V0 m c main_arg5 : S2048.Idx → EReal), V0 m c main_arg8, V0 m c main_arg11, V0 m c main_arg14] g) (ix1 j) := by
  have e : (V1 m c main_v17 : S4x1x2048.Idx → EReal)
      = shapeCast S4x1x2048 (concatenate S4x2048 0
          ([piece2 bcast_S2048_S1x2048_1 (V0 m c main_arg5), piece2 bcast_S2048_S1x2048_1 (V0 m c main_arg8),
           piece2 bcast_S2048_S1x2048_1 (V0 m c main_arg11), piece2 bcast_S2048_S1x2048_1 (V0 m c main_arg14)] : List ((s : Shape) × (s.Idx → EReal)))
          concatenates_S1x2048_S1x2048_S1x2048_S1x2048_S4x2048_d0) shapeCasts_S4x2048_S4x1x2048 := by
    dsimp only [V1, hostOps0]; host_results; rfl
  exact (congrFun e _).trans ((view3_apply _ _ g j).trans (stack2_apply _ _ _ _ _ _ g j))

/-- The batch of inputs is only converted, which on the extended reals changes nothing. -/
theorem V1_v18 : (V1 m c main_v18 : S8192x2048.Idx → EReal) = (V0 m c main_arg0 : S8192x2048.Idx → EReal) := by
  dsimp only [V1, hostOps0]; host_results; rfl

/-- The batch of hidden states is only converted, which on the extended reals changes nothing. -/
theorem V1_v19 : (V1 m c main_v19 : S8192x2048.Idx → EReal) = (V0 m c main_arg1 : S8192x2048.Idx → EReal) := by
  dsimp only [V1, hostOps0]; host_results; rfl

/-- No host operation writes an argument array: the batch of cell states is as at launch. -/
theorem V1_arg2 : V1 m c main_arg2 = V0 m c main_arg2 := Gen.V1_of m c main_arg2 (by decide)

end Cert.KernelIdeal.HostStage

end
-- ==== Proof.LstmSpec.lean ====
/-
  The LSTM cell both programs compute, as functions of the fifteen argument arrays on the extended reals,
  one entry at a time.

  For a batch row `r` and a hidden unit `j`, a gate's pre-activation is
      pre r j = (sum_k x[r,k] * Wx[j,k] + sum_k h[r,k] * Wh[j,k]) + b[j],
  with the gate's own two weight matrices (stored [out, in]) and bias. The forget, input and output gates
  apply the logistic function 1 / (1 + e^(-z)) to it, the candidate applies tanh, and
      c_new r j = f r j * c[r,j] + i r j * cand r j,      h_new r j = o r j * tanh (c_new r j).
  Nothing here needs the entries to be finite: the two programs spell these sums and products in this very
  order and grouping.
-/
import Idealize.ShloMosaic.PureOps.Ideal
import Idealize.ShloMosaic.Lib.ValueIdx

noncomputable section

namespace Cert.LstmCell

open Idealize.ShloMosaic Idealize.ShloMosaic.ValueIdx

/-- A [8192, 2048] array of extended reals (the batch of inputs, of hidden states, of cell states). -/
abbrev Batch : Type := (⟨2, ![8192, 2048]⟩ : Shape).Idx → EReal
/-- A [2048, 2048] weight matrix, stored [out, in]. -/
abbrev Weights : Type := (⟨2, ![2048, 2048]⟩ : Shape).Idx → EReal
/-- A [2048] bias. -/
abbrev Bias : Type := (⟨1, ![2048]⟩ : Shape).Idx → EReal

/-- One gate's pre-activation at batch row `r` and hidden unit `j`. -/
def preact (x h : Batch) (wx wh : Weights) (b : Bias) (r : Fin 8192) (j : Fin 2048) : EReal :=
  ((∑ k : Fin 2048, x (ix2 r k) * wx (ix2 j k)) + ∑ k : Fin 2048, h (ix2 r k) * wh (ix2 j k)) + b (ix1 j)

/-- The new cell state: forget gate times the old cell state plus input gate times candidate. -/
def cNew (x h c : Batch) (wxf whf : Weights) (bf : Bias) (wxi whi : Weights) (bi : Bias)
    (wxc whc : Weights) (bc : Bias) (r : Fin 8192) (j : Fin 2048) : EReal :=
  Ideal.logistic (preact x h wxf whf bf r j) * c (ix2 r j)
    + Ideal.logistic (preact x h wxi whi bi r j) * Ideal.tanh (preact x h wxc whc bc r j)

/-- The new hidden state: output gate times tanh of the new cell state. -/
def hNew (x h c : Batch) (wxf whf : Weights) (bf : Bias) (wxi whi : Weights) (bi : Bias)
    (wxo who : Weights) (bo : Bias) (wxc whc : Weights) (bc : Bias) (r : Fin 8192) (j : Fin 2048) : EReal :=
  Ideal.logistic (preact x h wxo who bo r j) * Ideal.tanh (cNew x h c wxf whf bf wxi whi bi wxc whc bc r j)

/-- The new cell state as a whole [8192, 2048] array. -/
def cNewArr (x h c : Batch) (wxf whf : Weights) (bf : Bias) (wxi whi : Weights) (bi : Bias)
    (wxc whc : Weights) (bc : Bias) : Batch :=
  fun i => cNew x h c wxf whf bf wxi whi bi wxc whc bc (i 0) (i 1)

/-- The new hidden state as a whole [8192, 2048] array. -/
def hNewArr (x h c : Batch) (wxf whf : Weights) (bf : Bias) (wxi whi : Weights) (bi : Bias)
    (wxo who : Weights) (bo : Bias) (wxc whc : Weights) (bc : Bias) : Batch :=
  fun i => hNew x h c wxf whf bf wxi whi bi wxo who bo wxc whc bc (i 0) (i 1)

theorem cNewArr_apply (x h c : Batch) (wxf whf : Weights) (bf : Bias) (wxi whi : Weights) (bi : Bias)
    (wxc whc : Weights) (bc : Bias) (r : Fin 8192) (j : Fin 2048) :
    cNewArr x h c wxf whf bf wxi whi bi wxc whc bc (ix2 r j) = cNew x h c wxf whf bf wxi whi bi wxc whc bc r j := rfl

theorem hNewArr_apply (x h c : Batch) (wxf whf : Weights) (bf : Bias) (wxi whi : Weights) (bi : Bias)
    (wxo who : Weights) (bo : Bias) (wxc whc : Weights) (bc : Bias) (r : Fin 8192) (j : Fin 2048) :
    hNewArr x h c wxf whf bf wxi whi bi wxo who bo wxc whc bc (ix2 r j) = hNew x h c wxf whf bf wxi whi bi wxo who bo wxc whc bc r j := rfl

end Cert.LstmCell

end
-- ==== Proof.KernelValue.lean ====
/-
  The two results of the kernel's program as functions of its fifteen arguments, at the extended reals.

  The gate call leaves in the gate array, at row r and column 2048 g + j, gate g's activation (the logistic function
  for g < 3, tanh for g = 3) of its pre-activation over the arrays the host operations prepared: x and h converted (the
  identity here), gate g's weight matrices picked out of the stacks, its bias row. The combine call reads that array and
  the cell state, which no earlier item wrote, and leaves c_new = f * c + i * cand and h_new = o * tanh c_new, the four
  gates being the four column blocks of a row. Substituting the one into the other gives the specification's functions.
-/
import proofs.«175041_j10453950399020_2_alg».proof.Proof.TwoCallsRun
import proofs.«175041_j10453950399020_2_alg».proof.Proof.GateArray
import proofs.«175041_j10453950399020_2_alg».proof.Proof.CombineArray
import proofs.«175041_j10453950399020_2_alg».proof.Proof.HostStage
import proofs.«175041_j10453950399020_2_alg».proof.Proof.LstmSpec

noncomputable section

namespace Cert.KernelIdeal.TwoCalls

open Cert.KernelIdeal Cert.KernelIdeal.Gen Cert.KernelIdeal.HostStage
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The gate array after the first call is what its write-backs leave. -/
theorem gates_eq : (E1 m c main_v20 : S8192x8192.Idx → EReal) = (dat0 (E0 m) c).arrAt 5 cfg0.N := X1_arr m c 5

/-- The cell state reaches the second call as launched. -/
theorem cell_eq : (E1 m c main_arg2 : S8192x2048.Idx → EReal) = (V0 m c main_arg2 : S8192x2048.Idx → EReal) :=
  (X1_of_ne m c main_arg2 (by decide)).trans (V1_of m c main_arg2 (by decide))

/-- Entry (r, 2048 g + j) of the gate array: gate g's activation of its pre-activation over the arguments. -/
theorem gates_at (r : Fin 8192) (g : Fin 4) (j : Fin 2048) (hcol : 2048 * g.val + j.val < 8192) :
    (E1 m c main_v20 : S8192x8192.Idx → EReal) (ix2 r ⟨2048 * g.val + j.val, hcol⟩)
      = (if g = 3 then Ideal.tanh else Ideal.logistic)
          (Cert.LstmCell.preact (V0 m c main_arg0 : S8192x2048.Idx → EReal) (V0 m c main_arg1 : S8192x2048.Idx → EReal)
            (![(V0 m c main_arg3 : S2048x2048.Idx → EReal), V0 m c main_arg6, V0 m c main_arg9, V0 m c main_arg12] g)
            (![(V0 m c main_arg4 : S2048x2048.Idx → EReal), V0 m c main_arg7, V0 m c main_arg10, V0 m c main_arg13] g)
            (![(V0 m c main_arg5 : S2048.Idx → EReal), V0 m c main_arg8, V0 m c main_arg11, V0 m c main_arg14] g) r j) := by
  rw [gates_eq, gate_array (E0 m) c r g j]
  unfold Cert.LstmCell.preact
  refine congrArg _ (congrArg₂ (· + ·) (congrArg₂ (· + ·) (Finset.sum_congr rfl fun k _ => ?_) (Finset.sum_congr rfl fun k _ => ?_)) ?_)
  · exact congrArg₂ (· * ·) (congrFun (V1_v18 m c) (ix2 r k)) (V1_v5 m c g j k)
  · exact congrArg₂ (· * ·) (congrFun (V1_v19 m c) (ix2 r k)) (V1_v11 m c g j k)
  · exact V1_v17 m c g j

/-- The forget gate, columns 0 .. 2047. -/
theorem gate_f (r : Fin 8192) (j : Fin 2048) (hcol : j.val < 8192) :
    (E1 m c main_v20 : S8192x8192.Idx → EReal) (ix2 r ⟨j.val, hcol⟩)
      = Ideal.logistic (Cert.LstmCell.preact (V0 m c main_arg0 : S8192x2048.Idx → EReal) (V0 m c main_arg1 : S8192x2048.Idx → EReal) (V0 m c main_arg3 : S2048x2048.Idx → EReal) (V0 m c main_arg4 : S2048x2048.Idx → EReal) (V0 m c main_arg5 : S2048.Idx → EReal) r j) := by
  have h := gates_at m c r 0 j (by simpa using hcol)
  have e : (⟨2048 * (0 : Fin 4).val + j.val, by simpa using hcol⟩ : Fin 8192) = ⟨j.val, hcol⟩ := Fin.ext (by simp)
  rw [e] at h
  exact h
/-- The input gate, columns 2048 .. 4095. -/
theorem gate_i (r : Fin 8192) (j : Fin 2048) (hcol : 2048 + j.val < 8192) :
    (E1 m c main_v20 : S8192x8192.Idx → EReal) (ix2 r ⟨2048 + j.val, hcol⟩)
      = Ideal.logistic (Cert.LstmCell.preact (V0 m c main_arg0 : S8192x2048.Idx → EReal) (V0 m c main_arg1 : S8192x2048.Idx → EReal) (V0 m c main_arg6 : S2048x2048.Idx → EReal) (V0 m c main_arg7 : S2048x2048.Idx → EReal) (V0 m c main_arg8 : S2048.Idx → EReal) r j) := by
  have h := gates_at m c r 1 j (by simpa using hcol)
  have e : (⟨2048 * (1 : Fin 4).val + j.val, by simpa using hcol⟩ : Fin 8192) = ⟨2048 + j.val, hcol⟩ := Fin.ext (by simp)
  rw [e] at h
  exact h
/-- The output gate, columns 4096 .. 6143. -/
theorem gate_o (r : Fin 8192) (j : Fin 2048) (hcol : 4096 + j.val < 8192) :
    (E1 m c main_v20 : S8192x8192.Idx → EReal) (ix2 r ⟨4096 + j.val, hcol⟩)
      = Ideal.logistic (Cert.LstmCell.preact (V0 m c main_arg0 : S8192x2048.Idx → EReal) (V0 m c main_arg1 : S8192x2048.Idx → EReal) (V0 m c main_arg9 : S2048x2048.Idx → EReal) (V0 m c main_arg10 : S2048x2048.Idx → EReal) (V0 m c main_arg11 : S2048.Idx → EReal) r j) := by
  have h := gates_at m c r 2 j (by simpa using hcol)
  have e : (⟨2048 * (2 : Fin 4).val + j.val, by simpa using hcol⟩ : Fin 8192) = ⟨4096 + j.val, hcol⟩ := Fin.ext (by simp)
  rw [e] at h
  exact h
/-- The candidate, columns 6144 .. 8191. -/
theorem gate_c (r : Fin 8192) (j : Fin 2048) (hcol : 6144 + j.val < 8192) :
    (E1 m c main_v20 : S8192x8192.Idx → EReal) (ix2 r ⟨6144 + j.val, hcol⟩)
      = Ideal.tanh (Cert.LstmCell.preact (V0 m c main_arg0 : S8192x2048.Idx → EReal) (V0 m c main_arg1 : S8192x2048.Idx → EReal) (V0 m c main_arg12 : S2048x2048.Idx → EReal) (V0 m c main_arg13 : S2048x2048.Idx → EReal) (V0 m c main_arg14 : S2048.Idx → EReal) r j) := by
  have h := gates_at m c r 3 j (by simpa using hcol)
  have e : (⟨2048 * (3 : Fin 4).val + j.val, by simpa using hcol⟩ : Fin 8192) = ⟨6144 + j.val, hcol⟩ := Fin.ext (by simp)
  rw [e] at h
  exact h

/-- The second result array: the new cell state. -/
theorem kernel_c : (X2 m c (Proc.devRef .tc main_v21_1) : S8192x2048.Idx → EReal)
    = Cert.LstmCell.cNewArr (V0 m c main_arg0 : S8192x2048.Idx → EReal) (V0 m c main_arg1 : S8192x2048.Idx → EReal) (V0 m c main_arg2 : S8192x2048.Idx → EReal) (V0 m c main_arg3 : S2048x2048.Idx → EReal) (V0 m c main_arg4 : S2048x2048.Idx → EReal) (V0 m c main_arg5 : S2048.Idx → EReal) (V0 m c main_arg6 : S2048x2048.Idx → EReal) (V0 m c main_arg7 : S2048x2048.Idx → EReal) (V0 m c main_arg8 : S2048.Idx → EReal) (V0 m c main_arg12 : S2048x2048.Idx → EReal) (V0 m c main_arg13 : S2048x2048.Idx → EReal) (V0 m c main_arg14 : S2048.Idx → EReal) := by
  funext i
  obtain ⟨r, j, rfl⟩ : ∃ (r : Fin 8192) (j : Fin 2048), i = ix2 r j := ⟨i 0, i 1, eq_ix2 i⟩
  rw [Cert.LstmCell.cNewArr_apply]
  refine (congrFun (X2_arr m c 3) _).trans ?_
  rw [combine_cell (E1 m) c r j, cellAt_eq, gate_f m c r j, gate_i m c r j, gate_c m c r j, cell_eq m c]
  rfl

/-- The first result array: the new hidden state. -/
theorem kernel_h : (X2 m c (Proc.devRef .tc main_v21_0) : S8192x2048.Idx → EReal)
    = Cert.LstmCell.hNewArr (V0 m c main_arg0 : S8192x2048.Idx → EReal) (V0 m c main_arg1 : S8192x2048.Idx → EReal) (V0 m c main_arg2 : S8192x2048.Idx → EReal) (V0 m c main_arg3 : S2048x2048.Idx → EReal) (V0 m c main_arg4 : S2048x2048.Idx → EReal) (V0 m c main_arg5 : S2048.Idx → EReal) (V0 m c main_arg6 : S2048x2048.Idx → EReal) (V0 m c main_arg7 : S2048x2048.Idx → EReal) (V0 m c main_arg8 : S2048.Idx → EReal) (V0 m c main_arg9 : S2048x2048.Idx → EReal) (V0 m c main_arg10 : S2048x2048.Idx → EReal) (V0 m c main_arg11 : S2048.Idx → EReal) (V0 m c main_arg12 : S2048x2048.Idx → EReal) (V0 m c main_arg13 : S2048x2048.Idx → EReal) (V0 m c main_arg14 : S2048.Idx → EReal) := by
  funext i
  obtain ⟨r, j, rfl⟩ : ∃ (r : Fin 8192) (j : Fin 2048), i = ix2 r j := ⟨i 0, i 1, eq_ix2 i⟩
  rw [Cert.LstmCell.hNewArr_apply]
  refine (congrFun (X2_arr m c 2) _).trans ?_
  rw [combine_hidden (E1 m) c r j, hiddenAt_eq, gate_f m c r j, gate_i m c r j, gate_o m c r j, gate_c m c r j, cell_eq m c]
  rfl

end Cert.KernelIdeal.TwoCalls

end
-- ==== Proof.RefIsSpec.lean ====
/-
  The reference program computes the LSTM cell of the specification, entry by entry, on the extended reals.

  The reference stacks the four gates' weight matrices (each [2048, 2048], stored [out, in]) along the output axis
  into one [8192, 2048] matrix per side, and the four biases into one [8192] vector, so that all four
  pre-activations come out of one pair of matrix products:
      gates[r, c] = (sum_k x[r,k] * Wx[c,k] + sum_k h[r,k] * Wh[c,k]) + b[c],      c = 2048 * g + j,
  where g = 0, 1, 2, 3 is the forget, input, output and candidate gate and j the hidden unit. Row c = 2048 * g + j of
  a stacked matrix is row j of the g-th matrix, and entry c of the stacked bias is entry j of the g-th bias, so
  gates[r, 2048 * g + j] is the g-th gate's pre-activation at (r, j) with the sums in the specification's order and
  grouping. The four column bands [2048 * g, 2048 * g + 2048) are then sliced out; the forget, input and output
  bands go through 1 / (1 + e^(-z)), which is the logistic function by definition, the candidate band through
  tanh, and c_new = f * c + i * cand, h_new = o * tanh c_new are formed pointwise exactly as in the specification.
-/
import proofs.«175041_j10453950399020_2_alg».proof.Proof.Gen.ReferenceIdeal.Read
import proofs.«175041_j10453950399020_2_alg».proof.Proof.LstmSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- A [8192, 2048] array of extended reals: the inputs, the hidden states, the cell states. -/
abbrev Bat : Type := (⟨S8192x2048, .f32⟩ : BufTy).Contents (Elt Ideal)
/-- A [2048, 2048] weight matrix. -/
abbrev Mat : Type := (⟨S2048x2048, .f32⟩ : BufTy).Contents (Elt Ideal)
/-- A [2048] bias. -/
abbrev Vec : Type := (⟨S2048, .f32⟩ : BufTy).Contents (Elt Ideal)

/-! ## A stacked array read at a row: row `2048 * g + j` of the stack is row `j` of the `g`-th piece -/

/-- Row `0 + j` of the stacked input-side weights is row `j` of the forget gate's matrix. -/
theorem cat_wx_0 (A B C D : Mat) (j k : Fin 2048) (c : Fin 8192) (hc : c.val = 0 + j.val) :
    val_main_v0 (F := Ideal) A B C D (ix2 c k) = A (ix2 j k) := by
  unfold val_main_v0
  exact concatenate_apply_piece (t := S8192x2048) (0 : Fin S8192x2048.rank)
    [⟨S2048x2048, A⟩, ⟨S2048x2048, B⟩, ⟨S2048x2048, C⟩, ⟨S2048x2048, D⟩]
    concatenates_S2048x2048_S2048x2048_S2048x2048_S2048x2048_S8192x2048_d0 (ix2 c k)
    0 (by show (0 : Nat) < 4; decide) S2048x2048 A rfl rfl 0 (by rfl) (ix2 j k)
    (fun b hb => match b, hb with
      | ⟨0, _⟩, hb => absurd rfl hb
      | ⟨1, _⟩, _ => rfl)
    (by show 0 + j.val = c.val; omega)

/-- Row `2048 + j` of the stacked input-side weights is row `j` of the input gate's matrix. -/
theorem cat_wx_1 (A B C D : Mat) (j k : Fin 2048) (c : Fin 8192) (hc : c.val = 2048 + j.val) :
    val_main_v0 (F := Ideal) A B C D (ix2 c k) = B (ix2 j k) := by
  unfold val_main_v0
  exact concatenate_apply_piece (t := S8192x2048) (0 : Fin S8192x2048.rank)
    [⟨S2048x2048, A⟩, ⟨S2048x2048, B⟩, ⟨S2048x2048, C⟩, ⟨S2048x2048, D⟩]
    concatenates_S2048x2048_S2048x2048_S2048x2048_S2048x2048_S8192x2048_d0 (ix2 c k)
    1 (by show (1 : Nat) < 4; decide) S2048x2048 B rfl rfl 2048 (by rfl) (ix2 j k)
    (fun b hb => match b, hb with
      | ⟨0, _⟩, hb => absurd rfl hb
      | ⟨1, _⟩, _ => rfl)
    (by show 2048 + j.val = c.val; omega)

/-- Row `4096 + j` of the stacked input-side weights is row `j` of the output gate's matrix. -/
theorem cat_wx_2 (A B C D : Mat) (j k : Fin 2048) (c : Fin 8192) (hc : c.val = 4096 + j.val) :
    val_main_v0 (F := Ideal) A B C D (ix2 c k) = C (ix2 j k) := by
  unfold val_main_v0
  exact concatenate_apply_piece (t := S8192x2048) (0 : Fin S8192x2048.rank)
    [⟨S2048x2048, A⟩, ⟨S2048x2048, B⟩, ⟨S2048x2048, C⟩, ⟨S2048x2048, D⟩]
    concatenates_S2048x2048_S2048x2048_S2048x2048_S2048x2048_S8192x2048_d0 (ix2 c k)
    2 (by show (2 : Nat) < 4; decide) S2048x2048 C rfl rfl 4096 (by rfl) (ix2 j k)
    (fun b hb => match b, hb with
      | ⟨0, _⟩, hb => absurd rfl hb
      | ⟨1, _⟩, _ => rfl)
    (by show 4096 + j.val = c.val; omega)

/-- Row `6144 + j` of the stacked input-side weights is row `j` of the candidate gate's matrix. -/
theorem cat_wx_3 (A B C D : Mat) (j k : Fin 2048) (c : Fin 8192) (hc : c.val = 6144 + j.val) :
    val_main_v0 (F := Ideal) A B C D (ix2 c k) = D (ix2 j k) := by
  unfold val_main_v0
  exact concatenate_apply_piece (t := S8192x2048) (0 : Fin S8192x2048.rank)
    [⟨S2048x2048, A⟩, ⟨S2048x2048, B⟩, ⟨S2048x2048, C⟩, ⟨S2048x2048, D⟩]
    concatenates_S2048x2048_S2048x2048_S2048x2048_S2048x2048_S8192x2048_d0 (ix2 c k)
    3 (by show (3 : Nat) < 4; decide) S2048x2048 D rfl rfl 6144 (by rfl) (ix2 j k)
    (fun b hb => match b, hb with
      | ⟨0, _⟩, hb => absurd rfl hb
      | ⟨1, _⟩, _ => rfl)
    (by show 6144 + j.val = c.val; omega)

/-- Row `0 + j` of the stacked hidden-side weights is row `j` of the forget gate's matrix. -/
theorem cat_wh_0 (A B C D : Mat) (j k : Fin 2048) (c : Fin 8192) (hc : c.val = 0 + j.val) :
    val_main_v1 (F := Ideal) A B C D (ix2 c k) = A (ix2 j k) := by
  unfold val_main_v1
  exact concatenate_apply_piece (t := S8192x2048) (0 : Fin S8192x2048.rank)
    [⟨S2048x2048, A⟩, ⟨S2048x2048, B⟩, ⟨S2048x2048, C⟩, ⟨S2048x2048, D⟩]
    concatenates_S2048x2048_S2048x2048_S2048x2048_S2048x2048_S8192x2048_d0 (ix2 c k)
    0 (by show (0 : Nat) < 4; decide) S2048x2048 A rfl rfl 0 (by rfl) (ix2 j k)
    (fun b hb => match b, hb with
      | ⟨0, _⟩, hb => absurd rfl hb
      | ⟨1, _⟩, _ => rfl)
    (by show 0 + j.val = c.val; omega)

/-- Row `2048 + j` of the stacked hidden-side weights is row `j` of the input gate's matrix. -/
theorem cat_wh_1 (A B C D : Mat) (j k : Fin 2048) (c : Fin 8192) (hc : c.val = 2048 + j.val) :
    val_main_v1 (F := Ideal) A B C D (ix2 c k) = B (ix2 j k) := by
  unfold val_main_v1
  exact concatenate_apply_piece (t := S8192x2048) (0 : Fin S8192x2048.rank)
    [⟨S2048x2048, A⟩, ⟨S2048x2048, B⟩, ⟨S2048x2048, C⟩, ⟨S2048x2048, D⟩]
    concatenates_S2048x2048_S2048x2048_S2048x2048_S2048x2048_S8192x2048_d0 (ix2 c k)
    1 (by show (1 : Nat) < 4; decide) S2048x2048 B rfl rfl 2048 (by rfl) (ix2 j k)
    (fun b hb => match b, hb with
      | ⟨0, _⟩, hb => absurd rfl hb
      | ⟨1, _⟩, _ => rfl)
    (by show 2048 + j.val = c.val; omega)

/-- Row `4096 + j` of the stacked hidden-side weights is row `j` of the output gate's matrix. -/
theorem cat_wh_2 (A B C D : Mat) (j k : Fin 2048) (c : Fin 8192) (hc : c.val = 4096 + j.val) :
    val_main_v1 (F := Ideal) A B C D (ix2 c k) = C (ix2 j k) := by
  unfold val_main_v1
  exact concatenate_apply_piece (t := S8192x2048) (0 : Fin S8192x2048.rank)
    [⟨S2048x2048, A⟩, ⟨S2048x2048, B⟩, ⟨S2048x2048, C⟩, ⟨S2048x2048, D⟩]
    concatenates_S2048x2048_S2048x2048_S2048x2048_S2048x2048_S8192x2048_d0 (ix2 c k)
    2 (by show (2 : Nat) < 4; decide) S2048x2048 C rfl rfl 4096 (by rfl) (ix2 j k)
    (fun b hb => match b, hb with
      | ⟨0, _⟩, hb => absurd rfl hb
      | ⟨1, _⟩, _ => rfl)
    (by show 4096 + j.val = c.val; omega)

/-- Row `6144 + j` of the stacked hidden-side weights is row `j` of the candidate gate's matrix. -/
theorem cat_wh_3 (A B C D : Mat) (j k : Fin 2048) (c : Fin 8192) (hc : c.val = 6144 + j.val) :
    val_main_v1 (F := Ideal) A B C D (ix2 c k) = D (ix2 j k) := by
  unfold val_main_v1
  exact concatenate_apply_piece (t := S8192x2048) (0 : Fin S8192x2048.rank)
    [⟨S2048x2048, A⟩, ⟨S2048x2048, B⟩, ⟨S2048x2048, C⟩, ⟨S2048x2048, D⟩]
    concatenates_S2048x2048_S2048x2048_S2048x2048_S2048x2048_S8192x2048_d0 (ix2 c k)
    3 (by show (3 : Nat) < 4; decide) S2048x2048 D rfl rfl 6144 (by rfl) (ix2 j k)
    (fun b hb => match b, hb with
      | ⟨0, _⟩, hb => absurd rfl hb
      | ⟨1, _⟩, _ => rfl)
    (by show 6144 + j.val = c.val; omega)

/-- Entry `0 + j` of the stacked bias is entry `j` of the forget gate's bias. -/
theorem cat_b_0 (A B C D : Vec) (j : Fin 2048) (c : Fin 8192) (hc : c.val = 0 + j.val) :
    val_main_v2 (F := Ideal) A B C D (ix1 c) = A (ix1 j) := by
  unfold val_main_v2
  exact concatenate_apply_piece (t := S8192) (0 : Fin S8192.rank)
    [⟨S2048, A⟩, ⟨S2048, B⟩, ⟨S2048, C⟩, ⟨S2048, D⟩]
    concatenates_S2048_S2048_S2048_S2048_S8192_d0 (ix1 c)
    0 (by show (0 : Nat) < 4; decide) S2048 A rfl rfl 0 (by rfl) (ix1 j)
    (fun b hb => match b, hb with
      | ⟨0, _⟩, hb => absurd rfl hb)
    (by show 0 + j.val = c.val; omega)

/-- Entry `2048 + j` of the stacked bias is entry `j` of the input gate's bias. -/
theorem cat_b_1 (A B C D : Vec) (j : Fin 2048) (c : Fin 8192) (hc : c.val = 2048 + j.val) :
    val_main_v2 (F := Ideal) A B C D (ix1 c) = B (ix1 j) := by
  unfold val_main_v2
  exact concatenate_apply_piece (t := S8192) (0 : Fin S8192.rank)
    [⟨S2048, A⟩, ⟨S2048, B⟩, ⟨S2048, C⟩, ⟨S2048, D⟩]
    concatenates_S2048_S2048_S2048_S2048_S8192_d0 (ix1 c)
    1 (by show (1 : Nat) < 4; decide) S2048 B rfl rfl 2048 (by rfl) (ix1 j)
    (fun b hb => match b, hb with
      | ⟨0, _⟩, hb => absurd rfl hb)
    (by show 2048 + j.val = c.val; omega)

/-- Entry `4096 + j` of the stacked bias is entry `j` of the output gate's bias. -/
theorem cat_b_2 (A B C D : Vec) (j : Fin 2048) (c : Fin 8192) (hc : c.val = 4096 + j.val) :
    val_main_v2 (F := Ideal) A B C D (ix1 c) = C (ix1 j) := by
  unfold val_main_v2
  exact concatenate_apply_piece (t := S8192) (0 : Fin S8192.rank)
    [⟨S2048, A⟩, ⟨S2048, B⟩, ⟨S2048, C⟩, ⟨S2048, D⟩]
    concatenates_S2048_S2048_S2048_S2048_S8192_d0 (ix1 c)
    2 (by show (2 : Nat) < 4; decide) S2048 C rfl rfl 4096 (by rfl) (ix1 j)
    (fun b hb => match b, hb with
      | ⟨0, _⟩, hb => absurd rfl hb)
    (by show 4096 + j.val = c.val; omega)

/-- Entry `6144 + j` of the stacked bias is entry `j` of the candidate gate's bias. -/
theorem cat_b_3 (A B C D : Vec) (j : Fin 2048) (c : Fin 8192) (hc : c.val = 6144 + j.val) :
    val_main_v2 (F := Ideal) A B C D (ix1 c) = D (ix1 j) := by
  unfold val_main_v2
  exact concatenate_apply_piece (t := S8192) (0 : Fin S8192.rank)
    [⟨S2048, A⟩, ⟨S2048, B⟩, ⟨S2048, C⟩, ⟨S2048, D⟩]
    concatenates_S2048_S2048_S2048_S2048_S8192_d0 (ix1 c)
    3 (by show (3 : Nat) < 4; decide) S2048 D rfl rfl 6144 (by rfl) (ix1 j)
    (fun b hb => match b, hb with
      | ⟨0, _⟩, hb => absurd rfl hb)
    (by show 6144 + j.val = c.val; omega)

/-! ## The four gates' pre-activations, all at once -/

/-- The [8192, 8192] array of all pre-activations at row `r` and column `c`: the two contractions against row `c`
    of the stacked weights (the transposes put the contracted axis first on the right operand), plus entry `c` of
    the stacked bias (broadcast over the rows). -/
theorem gates_apply (x0 x1 : Bat) (x3 x4 : Mat) (x5 : Vec) (x6 x7 : Mat) (x8 : Vec) (x9 x10 : Mat) (x11 : Vec)
    (x12 x13 : Mat) (x14 : Vec) (r c : Fin 8192) :
    val_main_v10 (F := Ideal) x0 x1 x3 x4 x5 x6 x7 x8 x9 x10 x11 x12 x13 x14 (ix2 r c)
      = ((∑ k : Fin 2048, x0 (ix2 r k) * val_main_v0 (F := Ideal) x3 x6 x9 x12 (ix2 c k))
          + ∑ k : Fin 2048, x1 (ix2 r k) * val_main_v1 (F := Ideal) x4 x7 x10 x13 (ix2 c k))
        + val_main_v2 (F := Ideal) x5 x8 x11 x14 (ix1 c) := by
  rw [val_main_v10_apply, val_main_v7_apply, val_main_v4_apply, val_main_v6_apply, val_main_v9_apply,
    val_main_v8_apply, Ideal.addf_def, Ideal.addf_def]
  have eb : idx_main_v8 (idx_main_v9 (ix2 r c)) = ix1 c := funext fun a => match a with
    | ⟨0, _⟩ => rfl
  refine congrArg₂ (· + ·) (congrArg₂ (· + ·) (Finset.sum_congr rfl fun k _ => ?_)
    (Finset.sum_congr rfl fun k _ => ?_)) (congrArg _ eb)
  · have e1 : lidx_main_v4 (ix2 r c) k = ix2 r k := funext fun a => match a with
      | ⟨0, _⟩ => rfl
      | ⟨1, _⟩ => rfl
    have e2 : idx_main_v3 (ridx_main_v4 (ix2 r c) k) = ix2 c k := funext fun a => match a with
      | ⟨0, _⟩ => rfl
      | ⟨1, _⟩ => rfl
    rw [val_main_v3_apply, e1, e2]
  · have e1 : lidx_main_v6 (ix2 r c) k = ix2 r k := funext fun a => match a with
      | ⟨0, _⟩ => rfl
      | ⟨1, _⟩ => rfl
    have e2 : idx_main_v5 (ridx_main_v6 (ix2 r c) k) = ix2 c k := funext fun a => match a with
      | ⟨0, _⟩ => rfl
      | ⟨1, _⟩ => rfl
    rw [val_main_v5_apply, e1, e2]

/-- Column `0 + j` of the pre-activations is the forget gate's pre-activation at hidden unit `j`. -/
theorem pre_0 (x0 x1 : Bat) (x3 x4 : Mat) (x5 : Vec) (x6 x7 : Mat) (x8 : Vec) (x9 x10 : Mat) (x11 : Vec)
    (x12 x13 : Mat) (x14 : Vec) (r : Fin 8192) (j : Fin 2048) (c : Fin 8192) (hc : c.val = 0 + j.val) :
    val_main_v10 (F := Ideal) x0 x1 x3 x4 x5 x6 x7 x8 x9 x10 x11 x12 x13 x14 (ix2 r c) = Cert.LstmCell.preact x0 x1 x3 x4 x5 r j := by
  rw [gates_apply]
  unfold Cert.LstmCell.preact
  exact congrArg₂ (· + ·) (congrArg₂ (· + ·)
    (Finset.sum_congr rfl fun k _ => congrArg (x0 (ix2 r k) * ·) (cat_wx_0 x3 x6 x9 x12 j k c hc))
    (Finset.sum_congr rfl fun k _ => congrArg (x1 (ix2 r k) * ·) (cat_wh_0 x4 x7 x10 x13 j k c hc)))
    (cat_b_0 x5 x8 x11 x14 j c hc)

/-- Column `2048 + j` of the pre-activations is the input gate's pre-activation at hidden unit `j`. -/
theorem pre_1 (x0 x1 : Bat) (x3 x4 : Mat) (x5 : Vec) (x6 x7 : Mat) (x8 : Vec) (x9 x10 : Mat) (x11 : Vec)
    (x12 x13 : Mat) (x14 : Vec) (r : Fin 8192) (j : Fin 2048) (c : Fin 8192) (hc : c.val = 2048 + j.val) :
    val_main_v10 (F := Ideal) x0 x1 x3 x4 x5 x6 x7 x8 x9 x10 x11 x12 x13 x14 (ix2 r c) = Cert.LstmCell.preact x0 x1 x6 x7 x8 r j := by
  rw [gates_apply]
  unfold Cert.LstmCell.preact
  exact congrArg₂ (· + ·) (congrArg₂ (· + ·)
    (Finset.sum_congr rfl fun k _ => congrArg (x0 (ix2 r k) * ·) (cat_wx_1 x3 x6 x9 x12 j k c hc))
    (Finset.sum_congr rfl fun k _ => congrArg (x1 (ix2 r k) * ·) (cat_wh_1 x4 x7 x10 x13 j k c hc)))
    (cat_b_1 x5 x8 x11 x14 j c hc)

/-- Column `4096 + j` of the pre-activations is the output gate's pre-activation at hidden unit `j`. -/
theorem pre_2 (x0 x1 : Bat) (x3 x4 : Mat) (x5 : Vec) (x6 x7 : Mat) (x8 : Vec) (x9 x10 : Mat) (x11 : Vec)
    (x12 x13 : Mat) (x14 : Vec) (r : Fin 8192) (j : Fin 2048) (c : Fin 8192) (hc : c.val = 4096 + j.val) :
    val_main_v10 (F := Ideal) x0 x1 x3 x4 x5 x6 x7 x8 x9 x10 x11 x12 x13 x14 (ix2 r c) = Cert.LstmCell.preact x0 x1 x9 x10 x11 r j := by
  rw [gates_apply]
  unfold Cert.LstmCell.preact
  exact congrArg₂ (· + ·) (congrArg₂ (· + ·)
    (Finset.sum_congr rfl fun k _ => congrArg (x0 (ix2 r k) * ·) (cat_wx_2 x3 x6 x9 x12 j k c hc))
    (Finset.sum_congr rfl fun k _ => congrArg (x1 (ix2 r k) * ·) (cat_wh_2 x4 x7 x10 x13 j k c hc)))
    (cat_b_2 x5 x8 x11 x14 j c hc)

/-- Column `6144 + j` of the pre-activations is the candidate gate's pre-activation at hidden unit `j`. -/
theorem pre_3 (x0 x1 : Bat) (x3 x4 : Mat) (x5 : Vec) (x6 x7 : Mat) (x8 : Vec) (x9 x10 : Mat) (x11 : Vec)
    (x12 x13 : Mat) (x14 : Vec) (r : Fin 8192) (j : Fin 2048) (c : Fin 8192) (hc : c.val = 6144 + j.val) :
    val_main_v10 (F := Ideal) x0 x1 x3 x4 x5 x6 x7 x8 x9 x10 x11 x12 x13 x14 (ix2 r c) = Cert.LstmCell.preact x0 x1 x12 x13 x14 r j := by
  rw [gates_apply]
  unfold Cert.LstmCell.preact
  exact congrArg₂ (· + ·) (congrArg₂ (· + ·)
    (Finset.sum_congr rfl fun k _ => congrArg (x0 (ix2 r k) * ·) (cat_wx_3 x3 x6 x9 x12 j k c hc))
    (Finset.sum_congr rfl fun k _ => congrArg (x1 (ix2 r k) * ·) (cat_wh_3 x4 x7 x10 x13 j k c hc)))
    (cat_b_3 x5 x8 x11 x14 j c hc)

/-! ## The gates -/

/-- The single-precision bit pattern 0x3F800000 is the number one. -/
private theorem one_bits : Ideal.ofBits .f32 0x3F800000#32 = (1 : EReal) := by
  simp [Ideal.ofBits, Ideal.ieee, -EReal.coe_mul]; norm_num

/-- One over (one plus the exponential of the negation) is the logistic function, by its definition. -/
private theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z))
    = Ideal.logistic z
  rw [one_bits]
  rfl

/-- The forget gate: the logistic function of columns [0, 2048) of the pre-activations. -/
theorem gate_f (x0 x1 : Bat) (x3 x4 : Mat) (x5 : Vec) (x6 x7 : Mat) (x8 : Vec) (x9 x10 : Mat) (x11 : Vec)
    (x12 x13 : Mat) (x14 : Vec) (r : Fin 8192) (j : Fin 2048) :
    val_main_v17 (F := Ideal) x0 x1 x3 x4 x5 x6 x7 x8 x9 x10 x11 x12 x13 x14 (ix2 r j) = Ideal.logistic (Cert.LstmCell.preact x0 x1 x3 x4 x5 r j) := by
  rw [val_main_v17_apply, val_main_v16_apply, val_main_cst_0_apply, val_main_v15_apply, val_main_v14_apply,
    val_main_cst_apply, val_main_v13_apply, val_main_v12_apply, val_main_v11_apply]
  have e : idx_main_v11 (ix2 r j) = ix2 r (⟨j.val, by omega⟩ : Fin 8192) := funext fun a => match a with
    | ⟨0, _⟩ => rfl
    | ⟨1, _⟩ => rfl
  rw [e, pre_0 x0 x1 x3 x4 x5 x6 x7 x8 x9 x10 x11 x12 x13 x14 r j _ (by show j.val = 0 + j.val; omega)]
  exact logistic_spelt _

/-- The input gate: the logistic function of columns [2048, 4096) of the pre-activations. -/
theorem gate_i (x0 x1 : Bat) (x3 x4 : Mat) (x5 : Vec) (x6 x7 : Mat) (x8 : Vec) (x9 x10 : Mat) (x11 : Vec)
    (x12 x13 : Mat) (x14 : Vec) (r : Fin 8192) (j : Fin 2048) :
    val_main_v24 (F := Ideal) x0 x1 x3 x4 x5 x6 x7 x8 x9 x10 x11 x12 x13 x14 (ix2 r j) = Ideal.logistic (Cert.LstmCell.preact x0 x1 x6 x7 x8 r j) := by
  rw [val_main_v24_apply, val_main_v23_apply, val_main_cst_2_apply, val_main_v22_apply, val_main_v21_apply,
    val_main_cst_1_apply, val_main_v20_apply, val_main_v19_apply, val_main_v18_apply]
  have e : idx_main_v18 (ix2 r j) = ix2 r (⟨2048 + j.val, by omega⟩ : Fin 8192) := funext fun a => match a with
    | ⟨0, _⟩ => rfl
    | ⟨1, _⟩ => rfl
  rw [e, pre_1 x0 x1 x3 x4 x5 x6 x7 x8 x9 x10 x11 x12 x13 x14 r j _ rfl]
  exact logistic_spelt _

/-- The output gate: the logistic function of columns [4096, 6144) of the pre-activations. -/
theorem gate_o (x0 x1 : Bat) (x3 x4 : Mat) (x5 : Vec) (x6 x7 : Mat) (x8 : Vec) (x9 x10 : Mat) (x11 : Vec)
    (x12 x13 : Mat) (x14 : Vec) (r : Fin 8192) (j : Fin 2048) :
    val_main_v31 (F := Ideal) x0 x1 x3 x4 x5 x6 x7 x8 x9 x10 x11 x12 x13 x14 (ix2 r j) = Ideal.logistic (Cert.LstmCell.preact x0 x1 x9 x10 x11 r j) := by
  rw [val_main_v31_apply, val_main_v30_apply, val_main_cst_4_apply, val_main_v29_apply, val_main_v28_apply,
    val_main_cst_3_apply, val_main_v27_apply, val_main_v26_apply, val_main_v25_apply]
  have e : idx_main_v25 (ix2 r j) = ix2 r (⟨4096 + j.val, by omega⟩ : Fin 8192) := funext fun a => match a with
    | ⟨0, _⟩ => rfl
    | ⟨1, _⟩ => rfl
  rw [e, pre_2 x0 x1 x3 x4 x5 x6 x7 x8 x9 x10 x11 x12 x13 x14 r j _ rfl]
  exact logistic_spelt _

/-- The candidate: tanh of columns [6144, 8192) of the pre-activations. -/
theorem cand (x0 x1 : Bat) (x3 x4 : Mat) (x5 : Vec) (x6 x7 : Mat) (x8 : Vec) (x9 x10 : Mat) (x11 : Vec)
    (x12 x13 : Mat) (x14 : Vec) (r : Fin 8192) (j : Fin 2048) :
    val_main_v33 (F := Ideal) x0 x1 x3 x4 x5 x6 x7 x8 x9 x10 x11 x12 x13 x14 (ix2 r j) = Ideal.tanh (Cert.LstmCell.preact x0 x1 x12 x13 x14 r j) := by
  rw [val_main_v33_apply, val_main_v32_apply]
  have e : idx_main_v32 (ix2 r j) = ix2 r (⟨6144 + j.val, by omega⟩ : Fin 8192) := funext fun a => match a with
    | ⟨0, _⟩ => rfl
    | ⟨1, _⟩ => rfl
  rw [e, pre_3 x0 x1 x3 x4 x5 x6 x7 x8 x9 x10 x11 x12 x13 x14 r j _ rfl]
  rfl

/-! ## The two results -/

/-- The reference's new cell state is the specification's: forget gate times the old cell state plus input gate
    times candidate. -/
theorem ref_c (x0 x1 x2 : (⟨S8192x2048, .f32⟩ : BufTy).Contents (Elt Ideal))
    (x3 x4 : (⟨S2048x2048, .f32⟩ : BufTy).Contents (Elt Ideal)) (x5 : (⟨S2048, .f32⟩ : BufTy).Contents (Elt Ideal))
    (x6 x7 : (⟨S2048x2048, .f32⟩ : BufTy).Contents (Elt Ideal)) (x8 : (⟨S2048, .f32⟩ : BufTy).Contents (Elt Ideal))
    (x9 x10 : (⟨S2048x2048, .f32⟩ : BufTy).Contents (Elt Ideal)) (x11 : (⟨S2048, .f32⟩ : BufTy).Contents (Elt Ideal))
    (x12 x13 : (⟨S2048x2048, .f32⟩ : BufTy).Contents (Elt Ideal)) (x14 : (⟨S2048, .f32⟩ : BufTy).Contents (Elt Ideal)) (r : Fin 8192) (j : Fin 2048) :
    val_main_v36 (F := Ideal) x0 x1 x2 x3 x4 x5 x6 x7 x8 x9 x10 x11 x12 x13 x14 (ix2 r j)
      = Cert.LstmCell.cNew x0 x1 x2 x3 x4 x5 x6 x7 x8 x12 x13 x14 r j := by
  rw [val_main_v36_apply, val_main_v34_apply, val_main_v35_apply, gate_f, gate_i, cand]
  rfl

/-- The reference's new hidden state is the specification's: output gate times tanh of the new cell state. -/
theorem ref_h (x0 x1 x2 : (⟨S8192x2048, .f32⟩ : BufTy).Contents (Elt Ideal))
    (x3 x4 : (⟨S2048x2048, .f32⟩ : BufTy).Contents (Elt Ideal)) (x5 : (⟨S2048, .f32⟩ : BufTy).Contents (Elt Ideal))
    (x6 x7 : (⟨S2048x2048, .f32⟩ : BufTy).Contents (Elt Ideal)) (x8 : (⟨S2048, .f32⟩ : BufTy).Contents (Elt Ideal))
    (x9 x10 : (⟨S2048x2048, .f32⟩ : BufTy).Contents (Elt Ideal)) (x11 : (⟨S2048, .f32⟩ : BufTy).Contents (Elt Ideal))
    (x12 x13 : (⟨S2048x2048, .f32⟩ : BufTy).Contents (Elt Ideal)) (x14 : (⟨S2048, .f32⟩ : BufTy).Contents (Elt Ideal)) (r : Fin 8192) (j : Fin 2048) :
    val_main_v38 (F := Ideal) x0 x1 x2 x3 x4 x5 x6 x7 x8 x9 x10 x11 x12 x13 x14 (ix2 r j)
      = Cert.LstmCell.hNew x0 x1 x2 x3 x4 x5 x6 x7 x8 x9 x10 x11 x12 x13 x14 r j := by
  rw [val_main_v38_apply, val_main_v37_apply, ref_c, gate_o]
  rfl

end Cert.ReferenceIdeal.RefValue

end
-- ==== Proof.RefRun.lean ====
/-
  The reference program's whole run, with its two results named by the specification.

  Every weakly fair execution of the reference terminates with the new hidden state and the new cell state equal,
  as whole [8192, 2048] arrays, to the specification's functions of the fifteen arguments' initial contents, and
  with the arguments unchanged. The run itself is read back operation by operation in the imported run module; the
  term it leaves in each result buffer is the last stage of the index-by-index reading, which agrees with the
  specification at every index (r, j), hence as an array.
-/
import proofs.«175041_j10453950399020_2_alg».proof.Proof.RefIsSpec
import proofs.«175041_j10453950399020_2_alg».proof.Proof.Gen.ReferenceIdeal.Run
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's new hidden state, as a whole array, is the specification's: two arrays that agree at every
    index (r, j) are equal. -/
theorem ref_h_arr (x0 x1 x2 : (⟨S8192x2048, .f32⟩ : BufTy).Contents (Elt Ideal))
    (x3 x4 : (⟨S2048x2048, .f32⟩ : BufTy).Contents (Elt Ideal)) (x5 : (⟨S2048, .f32⟩ : BufTy).Contents (Elt Ideal))
    (x6 x7 : (⟨S2048x2048, .f32⟩ : BufTy).Contents (Elt Ideal)) (x8 : (⟨S2048, .f32⟩ : BufTy).Contents (Elt Ideal))
    (x9 x10 : (⟨S2048x2048, .f32⟩ : BufTy).Contents (Elt Ideal)) (x11 : (⟨S2048, .f32⟩ : BufTy).Contents (Elt Ideal))
    (x12 x13 : (⟨S2048x2048, .f32⟩ : BufTy).Contents (Elt Ideal)) (x14 : (⟨S2048, .f32⟩ : BufTy).Contents (Elt Ideal)) :
    val_main_v38 (F := Ideal) x0 x1 x2 x3 x4 x5 x6 x7 x8 x9 x10 x11 x12 x13 x14 = Cert.LstmCell.hNewArr x0 x1 x2 x3 x4 x5 x6 x7 x8 x9 x10 x11 x12 x13 x14 := by
  funext i
  obtain ⟨r, j, rfl⟩ : ∃ r j, i = ix2 r j := ⟨_, _, eq_ix2 i⟩
  exact (ref_h x0 x1 x2 x3 x4 x5 x6 x7 x8 x9 x10 x11 x12 x13 x14 r j).trans (Cert.LstmCell.hNewArr_apply x0 x1 x2 x3 x4 x5 x6 x7 x8 x9 x10 x11 x12 x13 x14 r j).symm

/-- The reference's new cell state, as a whole array, is the specification's. -/
theorem ref_c_arr (x0 x1 x2 : (⟨S8192x2048, .f32⟩ : BufTy).Contents (Elt Ideal))
    (x3 x4 : (⟨S2048x2048, .f32⟩ : BufTy).Contents (Elt Ideal)) (x5 : (⟨S2048, .f32⟩ : BufTy).Contents (Elt Ideal))
    (x6 x7 : (⟨S2048x2048, .f32⟩ : BufTy).Contents (Elt Ideal)) (x8 : (⟨S2048, .f32⟩ : BufTy).Contents (Elt Ideal))
    (x9 x10 : (⟨S2048x2048, .f32⟩ : BufTy).Contents (Elt Ideal)) (x11 : (⟨S2048, .f32⟩ : BufTy).Contents (Elt Ideal))
    (x12 x13 : (⟨S2048x2048, .f32⟩ : BufTy).Contents (Elt Ideal)) (x14 : (⟨S2048, .f32⟩ : BufTy).Contents (Elt Ideal)) :
    val_main_v36 (F := Ideal) x0 x1 x2 x3 x4 x5 x6 x7 x8 x9 x10 x11 x12 x13 x14 = Cert.LstmCell.cNewArr x0 x1 x2 x3 x4 x5 x6 x7 x8 x12 x13 x14 := by
  funext i
  obtain ⟨r, j, rfl⟩ : ∃ r j, i = ix2 r j := ⟨_, _, eq_ix2 i⟩
  exact (ref_c x0 x1 x2 x3 x4 x5 x6 x7 x8 x9 x10 x11 x12 x13 x14 r j).trans (Cert.LstmCell.cNewArr_apply x0 x1 x2 x3 x4 x5 x6 x7 x8 x12 x13 x14 r j).symm

/-- Every weakly fair execution of the reference terminates with the two results at the specification's arrays of
    the arguments' initial contents, and the arguments unchanged. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread nD τ).loc main_v38) = Cert.LstmCell.hNewArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12)) (m' ((c.tc : Thread nD τ).loc main_arg13)) (m' ((c.tc : Thread nD τ).loc main_arg14))
      ∧ r.2.mem ((c.tc : Thread nD τ).loc main_v36) = Cert.LstmCell.cNewArr (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg12)) (m' ((c.tc : Thread nD τ).loc main_arg13)) (m' ((c.tc : Thread nD τ).loc main_arg14))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)) :=
  (θ_run Cert.ReferenceIdeal.defs _ _).mono (fun _ h c =>
      ⟨(h c).1.trans ((val_main_v38_eq (F := Ideal) m' c).trans (ref_h_arr ..)),
       (h c).2.1.trans ((val_main_v36_eq (F := Ideal) m' c).trans (ref_c_arr ..)),
       (h c).2.2⟩)
    (Cert.ReferenceIdeal.Value.run (F := Ideal) m' ρ')

end Cert.ReferenceIdeal.RefValue

end
-- ==== Proof.lean ====
/-
  The certificate of an LSTM cell: a two-call Pallas kernel against its jnp reference.

  The kernel stacks the four gates' weights and biases, converts x and h, computes in a first call every gate's
  activation of  x . Wx_g^T + h . Wh_g^T + b_g  tile by tile (tanh for the candidate, the logistic function for the
  forget, input and output gates), and in a second call combines them:  c_new = f * c + i * cand,  h_new = o * tanh c_new.
  The reference concatenates the weights, forms all four pre-activations in one product, slices the gates out and
  applies the same functions; its logistic function is spelt 1 / (1 + e^(-z)), which on the extended reals is the
  kernel's. Both programs contract the whole inner axis in one sum and add the three terms of a pre-activation in the same
  grouping, so the two results agree entry by entry with no appeal to finiteness: both are the functions of
  Proof/LstmSpec.lean.

  The three frames: each kernel program is run item by item (host operations, gate call, combine call) with every
  unscoped buffer's contents known between items, the argument arrays written by none (Proof/TwoCallsRun.lean and its
  word-level twin); the reference's frame is its run with the results dropped. No rewrite was applied when the kernel
  was idealized, so the preservation claim is trivial.
-/
import proofs.«175041_j10453950399020_2_alg».proof.Defs
import proofs.«175041_j10453950399020_2_alg».proof.Proof.Gen.Kernel
import proofs.«175041_j10453950399020_2_alg».proof.Proof.Gen.KernelIdeal
import proofs.«175041_j10453950399020_2_alg».proof.Proof.Gen.ReferenceIdeal
import proofs.«175041_j10453950399020_2_alg».proof.Proof.Gen.Pre_finite_inputs
import proofs.«175041_j10453950399020_2_alg».proof.Proof.Gen.ReferenceIdeal.Run
import proofs.«175041_j10453950399020_2_alg».proof.Proof.Gen.ReferenceIdeal.Read
import proofs.«175041_j10453950399020_2_alg».proof.Proof.TwoCallsRunBits
import proofs.«175041_j10453950399020_2_alg».proof.Proof.KernelValue
import proofs.«175041_j10453950399020_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.TwoCalls.frame m ρ

theorem frame_kernel_ideal : Cert.frame_KernelIdeal := fun m ρ _ => Cert.KernelIdeal.TwoCalls.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The kernel's run with its two results named: the new hidden state and the new cell state of its arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v21_0)
          = Cert.LstmCell.hNewArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_v21_1)
          = Cert.LstmCell.cNewArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run (Cert.KernelIdeal.defs (F := Ideal)) _ _).mono (fun r h c => ⟨
    (h c _ (Cert.KernelIdeal.TwoCalls.mem_uc Cert.KernelIdeal.main_v21_0 (by decide))).trans (Cert.KernelIdeal.TwoCalls.kernel_h m c),
    (h c _ (Cert.KernelIdeal.TwoCalls.mem_uc Cert.KernelIdeal.main_v21_1 (by decide))).trans (Cert.KernelIdeal.TwoCalls.kernel_c m c),
    (h c _ (Cert.KernelIdeal.TwoCalls.mem_uc Cert.KernelIdeal.main_arg0 (by decide))).trans (Cert.KernelIdeal.TwoCalls.X2_main_arg0 m c),
    (h c _ (Cert.KernelIdeal.TwoCalls.mem_uc Cert.KernelIdeal.main_arg1 (by decide))).trans (Cert.KernelIdeal.TwoCalls.X2_main_arg1 m c),
    (h c _ (Cert.KernelIdeal.TwoCalls.mem_uc Cert.KernelIdeal.main_arg2 (by decide))).trans (Cert.KernelIdeal.TwoCalls.X2_main_arg2 m c),
    (h c _ (Cert.KernelIdeal.TwoCalls.mem_uc Cert.KernelIdeal.main_arg3 (by decide))).trans (Cert.KernelIdeal.TwoCalls.X2_main_arg3 m c),
    (h c _ (Cert.KernelIdeal.TwoCalls.mem_uc Cert.KernelIdeal.main_arg4 (by decide))).trans (Cert.KernelIdeal.TwoCalls.X2_main_arg4 m c),
    (h c _ (Cert.KernelIdeal.TwoCalls.mem_uc Cert.KernelIdeal.main_arg5 (by decide))).trans (Cert.KernelIdeal.TwoCalls.X2_main_arg5 m c),
    (h c _ (Cert.KernelIdeal.TwoCalls.mem_uc Cert.KernelIdeal.main_arg6 (by decide))).trans (Cert.KernelIdeal.TwoCalls.X2_main_arg6 m c),
    (h c _ (Cert.KernelIdeal.TwoCalls.mem_uc Cert.KernelIdeal.main_arg7 (by decide))).trans (Cert.KernelIdeal.TwoCalls.X2_main_arg7 m c),
    (h c _ (Cert.KernelIdeal.TwoCalls.mem_uc Cert.KernelIdeal.main_arg8 (by decide))).trans (Cert.KernelIdeal.TwoCalls.X2_main_arg8 m c),
    (h c _ (Cert.KernelIdeal.TwoCalls.mem_uc Cert.KernelIdeal.main_arg9 (by decide))).trans (Cert.KernelIdeal.TwoCalls.X2_main_arg9 m c),
    (h c _ (Cert.KernelIdeal.TwoCalls.mem_uc Cert.KernelIdeal.main_arg10 (by decide))).trans (Cert.KernelIdeal.TwoCalls.X2_main_arg10 m c),
    (h c _ (Cert.KernelIdeal.TwoCalls.mem_uc Cert.KernelIdeal.main_arg11 (by decide))).trans (Cert.KernelIdeal.TwoCalls.X2_main_arg11 m c),
    (h c _ (Cert.KernelIdeal.TwoCalls.mem_uc Cert.KernelIdeal.main_arg12 (by decide))).trans (Cert.KernelIdeal.TwoCalls.X2_main_arg12 m c),
    (h c _ (Cert.KernelIdeal.TwoCalls.mem_uc Cert.KernelIdeal.main_arg13 (by decide))).trans (Cert.KernelIdeal.TwoCalls.X2_main_arg13 m c),
    (h c _ (Cert.KernelIdeal.TwoCalls.mem_uc Cert.KernelIdeal.main_arg14 (by decide))).trans (Cert.KernelIdeal.TwoCalls.X2_main_arg14 m c)⟩)
    (Cert.KernelIdeal.TwoCalls.run_all m ρ)

/-- From memories that agree on the arguments both programs end with the specification's two arrays. -/
theorem algebraic : Cert.algebraic_KernelIdeal_ReferenceIdeal := by
  intro m ρ m' ρ' _ hagree
  refine ⟨fun c => Cert.LstmCell.hNewArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.LstmCell.cNewArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    kernel_run m ρ, ?_⟩
  refine (θ_run (Cert.ReferenceIdeal.defs (F := Ideal)) _ _).mono (fun _ h c => ?_) (Cert.ReferenceIdeal.RefValue.ref_run m' ρ')
  obtain ⟨e0, e1, e2, e3, e4, e5, e6, e7, e8, e9, e10, e11, e12, e13, e14⟩ := hagree c
  refine ⟨(h c).1.trans ?_, (h c).2.1.trans ?_, (h c).2.2⟩
  · rw [e0, e1, e2, e3, e4, e5, e6, e7, e8, e9, e10, e11, e12, e13, e14]
  · rw [e0, e1, e2, e3, e4, e5, e6, e7, e8, e12, e13, e14]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
